-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 81
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S100000x1, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S100000x128, .f32⟩
  | .hbm, ⟨63, _⟩ => ⟨S100000x1, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S100000x1, .f32⟩
  | .hbm, ⟨79, _⟩ => ⟨S1x64, .f32⟩
  | .hbm, ⟨80, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x1, .f32⟩
  | .local _ .vmem, ⟨28, _⟩ => ⟨S10000x1, .f32⟩
  | .local _ .vmem, ⟨29, _⟩ => ⟨S128x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x1, .f32⟩
  | .local _ .vmem, ⟨35, _⟩ => ⟨S10000x1, .f32⟩
  | .local _ .vmem, ⟨36, _⟩ => ⟨S1x64, .f32⟩
  | .local _ .vmem, ⟨37, _⟩ => ⟨S10000x64, .f32⟩
  | .local _ .vmem, ⟨38, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  broadcasts_S1x128_S10000x128 : S1x128.Broadcasts S10000x128
  reduces_S10000x128_S128 : S10000x128.Reduces [0] S128
  shapeCasts_S1x128_S128 : S1x128.ShapeCasts S128
  bcast_S_S128 : S_.BroadcastsInDim S128 (![] : Fin 0 → Fin S128.rank)
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S100000x128.size a
  hwx2_7 : ∀ i : grid2.Coords, EltTy.bits .f32 = 32 ∨ (Rect.block (s := S100000x128) S10000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v42) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v54) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x1, .f32⟩
  | .hbm, ⟨101, _⟩ => ⟨S100000x64, .f32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The shared host-side functions of the two programs, named once.

  Both programs compute, on the host and with the same operations, (1) the symmetric degree
  normalisation of a graph given by its edge list: for an endpoint array `idx` the vector
  `1/√max(deg, 1)`, `deg v` the number of edges whose endpoint is `v` (ones scatter-added into zeros);
  and (2) the aggregation of node rows along the edges: row `src e` of a node matrix is gathered for every
  edge `e` (a negative index first wrapped by the number of nodes) and scatter-added into row `dst e` of a
  zero matrix.  Naming them lets the comparison of the two programs treat them as opaque functions
  of their operands: equal operands give equal results.
-/
import proofs.«164736_j21964462752266_1_alg».proof.Proof.Gen.KernelIdeal

noncomputable section

namespace Cert.Bridge

open Idealize.ShloMosaic Cert.KernelIdeal Cert.KernelIdeal.Gen

variable {F : FTy → Type} [FloatOps F]

/-- `1/√max(deg, 1)` of the endpoint array `idx`, over the 100000 nodes. -/
def degNorm (idx : (⟨S1600000, .i32⟩ : BufTy).Contents (Elt F)) : (⟨S100000, .f32⟩ : BufTy).Contents (Elt F) :=
  Host.rsqrt (maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 idx)
      (broadcastInDim S1600000 ![] bcast_S_S1600000 (constant S_ .f32 0x3F800000#32)))
    (broadcastInDim S100000 ![] bcast_S_S100000 (constant S_ .f32 0x3F800000#32)))

/-- A possibly negative node index wrapped into range: `i + 100000` where `i < 0`. -/
def wrapIdx (idx : (⟨S1600000, .i32⟩ : BufTy).Contents (Elt F)) : (⟨S1600000, .i32⟩ : BufTy).Contents (Elt F) :=
  select (cmpi .slt idx (broadcastInDim S1600000 ![] bcast_S_S1600000 (constantI S_ 32 0#32)))
    (addi idx (broadcastInDim S1600000 ![] bcast_S_S1600000 (constantI S_ 32 100000#32))) idx

/-- Rows of a 128-column node matrix gathered at `src` and summed into the rows `dst`. -/
def aggregate128 (src dst : (⟨S1600000, .i32⟩ : BufTy).Contents (Elt F))
    (H : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 H
      (broadcastInDim S1600000x1 ![0] bcast_S1600000_S1600000x1_0 (wrapIdx (F := F) src)))

/-- Rows of a 64-column node matrix gathered at `src` and summed into the rows `dst`. -/
def aggregate64 (src dst : (⟨S1600000, .i32⟩ : BufTy).Contents (Elt F))
    (H : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 H
      (broadcastInDim S1600000x1 ![0] bcast_S1600000_S1600000x1_0 (wrapIdx (F := F) src)))

end Cert.Bridge

end
-- ==== Proof.KHost.lean ====
/-
  The host stretches of the kernel's program, read.

  Between its five kernel launches the program runs five straight lines of host operations.  Each line
  is a function from the buffer contents before it to the contents after it; here the buffers a later
  launch or line reads are stated as functions of the buffers the line itself reads, over an ARBITRARY
  valuation `W` of the buffers (so the statements compose without ever unfolding what `W` holds):
  the degree normalisations of the two endpoint arrays, the two edge aggregations, the column statistics
  `mean = sum / 100000` and `var = sumsq / 100000 - mean²`, and the reshapes that present vectors as one
  column or one row.
-/
import proofs.«164736_j21964462752266_1_alg».proof.Proof.Gen.KernelIdeal.Launch
import proofs.«164736_j21964462752266_1_alg».proof.Proof.Spec
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]

/-- A column sum presented as one row, divided by the number of rows: `s / 100000` as a vector. -/
def colMean (s : (⟨S1x128, .f32⟩ : BufTy).Contents (Elt F)) : (⟨S128, .f32⟩ : BufTy).Contents (Elt F) :=
  Host.divf (shapeCast S128 s shapeCasts_S1x128_S128)
    (broadcastInDim S128 ![] bcast_S_S128 (constant S_ .f32 0x47C35000#32))

/-- The variance from the column sums: `sumsq / 100000 - mean²`. -/
def colVar (s q : (⟨S1x128, .f32⟩ : BufTy).Contents (Elt F)) : (⟨S128, .f32⟩ : BufTy).Contents (Elt F) :=
  subf (colMean (F := F) q) (mulf (colMean (F := F) s) (colMean (F := F) s))

/-- No operation of the named line writes the buffer in the goal, so the line leaves it as it was. -/
macro "untouched_by " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

variable (W : Valuation τ sig (Elt F))

/-! ### Before the first launch: the two normalisations -/

theorem line0_v9 : after hostOps0 W (Proc.devRef .tc main_v9) = degNorm (F := F) (W (Proc.devRef .tc main_arg1)) := by
  after_results; rfl
theorem line0_v12 : after hostOps0 W (Proc.devRef .tc main_v12) = degNorm (F := F) (W (Proc.devRef .tc main_arg2)) := by
  after_results; rfl
theorem line0_v13 : after hostOps0 W (Proc.devRef .tc main_v13)
    = shapeCast S100000x1 (degNorm (F := F) (W (Proc.devRef .tc main_arg1))) shapeCasts_S100000_S100000x1 := by
  after_results; rfl

/-! ### Between the first and second launches: the first aggregation -/

theorem line1_v24 : after hostOps1 W (Proc.devRef .tc main_v24)
    = aggregate128 (F := F) (W (Proc.devRef .tc main_arg1)) (W (Proc.devRef .tc main_arg2)) (W (Proc.devRef .tc main_v14)) := by
  after_results; unfold aggregate128 wrapIdx; rfl
theorem line1_v25 : after hostOps1 W (Proc.devRef .tc main_v25)
    = shapeCast S100000x1 (W (Proc.devRef .tc main_v12)) shapeCasts_S100000_S100000x1 := by
  after_results; rfl
theorem line1_v26 : after hostOps1 W (Proc.devRef .tc main_v26)
    = shapeCast S1x128 (W (Proc.devRef .tc main_arg4)) shapeCasts_S128_S1x128 := by
  after_results; rfl

/-! ### Between the second and third launches: the column statistics -/

theorem line2_v36 : after hostOps2 W (Proc.devRef .tc main_v36)
    = shapeCast S100000x1 (W (Proc.devRef .tc main_v12)) shapeCasts_S100000_S100000x1 := by
  after_results; rfl
theorem line2_v37 : after hostOps2 W (Proc.devRef .tc main_v37)
    = shapeCast S1x128 (W (Proc.devRef .tc main_arg4)) shapeCasts_S128_S1x128 := by
  after_results; rfl
theorem line2_v38 : after hostOps2 W (Proc.devRef .tc main_v38)
    = shapeCast S1x128 (colMean (F := F) (W (Proc.devRef .tc main_v27_0))) shapeCasts_S128_S1x128 := by
  after_results; unfold colMean; rfl
theorem line2_v39 : after hostOps2 W (Proc.devRef .tc main_v39)
    = shapeCast S1x128 (colVar (F := F) (W (Proc.devRef .tc main_v27_0)) (W (Proc.devRef .tc main_v27_1))) shapeCasts_S128_S1x128 := by
  after_results; unfold colVar colMean; rfl
theorem line2_v40 : after hostOps2 W (Proc.devRef .tc main_v40)
    = shapeCast S1x128 (W (Proc.devRef .tc main_arg5)) shapeCasts_S128_S1x128 := by
  after_results; rfl
theorem line2_v41 : after hostOps2 W (Proc.devRef .tc main_v41)
    = shapeCast S1x128 (W (Proc.devRef .tc main_arg6)) shapeCasts_S128_S1x128 := by
  after_results; rfl

/-! ### Between the third and fourth launches -/

theorem line3_v43 : after hostOps3 W (Proc.devRef .tc main_v43)
    = shapeCast S100000x1 (W (Proc.devRef .tc main_v9)) shapeCasts_S100000_S100000x1 := by
  after_results; rfl

/-! ### Between the fourth and fifth launches: the second aggregation -/

theorem line4_v54 : after hostOps4 W (Proc.devRef .tc main_v54)
    = aggregate64 (F := F) (W (Proc.devRef .tc main_arg1)) (W (Proc.devRef .tc main_arg2)) (W (Proc.devRef .tc main_v44)) := by
  after_results_simp; unfold aggregate64 wrapIdx; rfl
theorem line4_v55 : after hostOps4 W (Proc.devRef .tc main_v55)
    = shapeCast S100000x1 (W (Proc.devRef .tc main_v12)) shapeCasts_S100000_S100000x1 := by
  after_results; rfl
theorem line4_v56 : after hostOps4 W (Proc.devRef .tc main_v56)
    = shapeCast S1x64 (W (Proc.devRef .tc main_arg8)) shapeCasts_S64_S1x64 := by
  after_results; rfl

end Cert.Bridge

end
-- ==== Proof.Stages.lean ====
/-
  What each of the five kernel launches computes, as functions of whole arrays over the extended reals.

  * `scaleShift A s b`: entry `(n, j)` is `A(n,j) · s(n) + b(j)` — a node matrix scaled row by row by a
    column and shifted by a row (the graph convolution's epilogue `agg · norm + bias`).
  * `scaledProduct X s W`: entry `(n, j)` is `∑ₖ (X(n,k) · s(n)) · W(k,j)` — the rows of `X` scaled by a column,
    then multiplied by the weight matrix.
  * `colSum H`: entry `(0, j)` is `∑ₙ H(n,j)`, a column sum presented as one row.
  * `normRelu H μ v g b ε z`: entry `(n, j)` is `max(((H(n,j) - μ(j)) · rsqrt(v(j) + ε)) · g(j) + b(j), z)` —
    batch normalisation with given statistics, then the rectifier.
  Indices are built from explicit row and column numbers so that the statements rewrite at `ix2 n j`.
-/
import Idealize.ShloMosaic.PureOps.Ideal
import Idealize.ShloMosaic.Lib.ValueIdx

open Idealize.ShloMosaic Idealize.ShloMosaic.ValueIdx
open scoped BigOperators

noncomputable section

namespace Cert.Bridge

variable {R K C : Nat}

/-- The row number of a matrix index. -/
abbrev rowOf (i : (⟨2, ![R, C]⟩ : Shape).Idx) : Fin R := ⟨(i 0).val, (i 0).isLt⟩
/-- The column number of a matrix index. -/
abbrev colOf (i : (⟨2, ![R, C]⟩ : Shape).Idx) : Fin C := ⟨(i 1).val, (i 1).isLt⟩

theorem rowOf_ix2 (n : Fin R) (j : Fin C) : rowOf (ix2 n j) = n := rfl
theorem colOf_ix2 (n : Fin R) (j : Fin C) : colOf (ix2 n j) = j := rfl

/-- `A(n,j) · s(n) + b(j)`. -/
def scaleShift (A : (⟨2, ![R, C]⟩ : Shape).Idx → EReal) (s : (⟨2, ![R, 1]⟩ : Shape).Idx → EReal)
    (b : (⟨2, ![1, C]⟩ : Shape).Idx → EReal) : (⟨2, ![R, C]⟩ : Shape).Idx → EReal :=
  fun i => A i * s (ix2 (rowOf i) (0 : Fin 1)) + b (ix2 (0 : Fin 1) (colOf i))

/-- `∑ₖ (X(n,k) · s(n)) · W(k,j)`. -/
def scaledProduct (X : (⟨2, ![R, K]⟩ : Shape).Idx → EReal) (s : (⟨2, ![R, 1]⟩ : Shape).Idx → EReal)
    (W : (⟨2, ![K, C]⟩ : Shape).Idx → EReal) : (⟨2, ![R, C]⟩ : Shape).Idx → EReal :=
  fun i => ∑ k : Fin K, (X (ix2 (rowOf i) k) * s (ix2 (rowOf i) (0 : Fin 1))) * W (ix2 k (colOf i))

/-- `∑ₙ H(n,j)`, as one row. -/
def colSum (H : (⟨2, ![R, C]⟩ : Shape).Idx → EReal) : (⟨2, ![1, C]⟩ : Shape).Idx → EReal :=
  fun i => ∑ n : Fin R, H (ix2 n (colOf i))

/-- The entrywise square. -/
def sq (H : (⟨2, ![R, C]⟩ : Shape).Idx → EReal) : (⟨2, ![R, C]⟩ : Shape).Idx → EReal := fun i => H i * H i

/-- `max(((H(n,j) - μ(j)) · rsqrt(v(j) + ε)) · g(j) + b(j), z)`. -/
def normRelu (H : (⟨2, ![R, C]⟩ : Shape).Idx → EReal) (μ v g b : (⟨2, ![1, C]⟩ : Shape).Idx → EReal) (ε z : EReal) :
    (⟨2, ![R, C]⟩ : Shape).Idx → EReal :=
  fun i => max ((H i - μ (ix2 (0 : Fin 1) (colOf i))) * Ideal.rsqrt (v (ix2 (0 : Fin 1) (colOf i)) + ε)
      * g (ix2 (0 : Fin 1) (colOf i)) + b (ix2 (0 : Fin 1) (colOf i))) z

end Cert.Bridge

end
-- ==== Proof.KSpec.lean ====
/-
  The two programs as compositions of named stages.

  Both programs compute, from the node features `x`, the edge endpoints `src`, `dst` and the parameters:
    `h₁ = (x · ns) W₁`, `a₁ = aggregate h₁`, `H = a₁ · nd + b₁`   (`ns`, `nd` the degree normalisations of `src`, `dst`)
  then a batch normalisation of `H` over its 100000 rows followed by the rectifier, then
    `h₂ = (hr · ns) W₂`, `a₂ = aggregate h₂`, `out = a₂ · nd + b₂`.
  They differ only in how the normalisation's statistics are written: the kernel takes the column sums
  `S = ∑ H`, `Q = ∑ H²` and sets `mean = S/N`, `var = Q/N - mean²` (`normalisedK`); the reference sets
  `mean = (0 + ∑ H)/N`, `var = (0 + ∑ (H - mean)²)/N` (`normalisedR`).  Everything before `H` and everything after the
  normalised features (`tailOut`) is the same function on both sides.
-/
import proofs.«164736_j21964462752266_1_alg».proof.Proof.Spec
import proofs.«164736_j21964462752266_1_alg».proof.Proof.Stages
import proofs.«164736_j21964462752266_1_alg».proof.Proof.KHost

noncomputable section

namespace Cert.Bridge

open Idealize.ShloMosaic Idealize.ShloMosaic.ValueIdx Cert.KernelIdeal Cert.KernelIdeal.Gen
open scoped BigOperators

/-- The stabiliser `ε` of the normalisation and the zero of the rectifier, as the programs spell them. -/
abbrev epsW : EReal := Ideal.ofBits .f32 0x3727C5AC#32
abbrev zeroW : EReal := Ideal.ofBits .f32 0x00000000#32
/-- The number of rows, as the programs spell it. -/
abbrev rowsW : EReal := Ideal.ofBits .f32 0x47C35000#32

variable (x : (⟨S100000x128, .f32⟩ : BufTy).Contents (Elt Ideal)) (src dst : (⟨S1600000, .i32⟩ : BufTy).Contents (Elt Ideal))
  (w1 : (⟨S128x128, .f32⟩ : BufTy).Contents (Elt Ideal)) (b1 g be : (⟨S128, .f32⟩ : BufTy).Contents (Elt Ideal))
  (w2 : (⟨S128x64, .f32⟩ : BufTy).Contents (Elt Ideal)) (b2 : (⟨S64, .f32⟩ : BufTy).Contents (Elt Ideal))

/-- A degree normalisation as one column. -/
def normCol (idx : (⟨S1600000, .i32⟩ : BufTy).Contents (Elt Ideal)) : (⟨S100000x1, .f32⟩ : BufTy).Contents (Elt Ideal) :=
  shapeCast S100000x1 (degNorm (F := Ideal) idx) shapeCasts_S100000_S100000x1

/-- `H = aggregate((x · ns) W₁) · nd + b₁`: the first graph convolution. -/
def conv1 : S100000x128.Idx → EReal :=
  scaleShift (aggregate128 (F := Ideal) src dst (scaledProduct x (normCol src) w1)) (normCol dst)
    (shapeCast S1x128 b1 shapeCasts_S128_S1x128)

/-- The kernel's normalised, rectified features: statistics from the column sums of `H` and `H²`. -/
def normalisedK (H : S100000x128.Idx → EReal) : S100000x128.Idx → EReal :=
  normRelu H (shapeCast S1x128 (colMean (F := Ideal) (colSum H)) shapeCasts_S128_S1x128)
    (shapeCast S1x128 (colVar (F := Ideal) (colSum H) (colSum (sq H))) shapeCasts_S128_S1x128)
    (shapeCast S1x128 g shapeCasts_S128_S1x128) (shapeCast S1x128 be shapeCasts_S128_S1x128) epsW zeroW

/-- The reference's column mean. -/
def meanR (H : S100000x128.Idx → EReal) (j : Fin 128) : EReal :=
  Ideal.div (zeroW + ∑ k : Fin 100000, H (ix2 k j)) rowsW

/-- The reference's normalised, rectified features: centred statistics. -/
def normalisedR (H : S100000x128.Idx → EReal) : S100000x128.Idx → EReal :=
  fun i => max (((H i - meanR H (colOf i))
      * Ideal.rsqrt (Ideal.div (zeroW + ∑ k : Fin 100000, (H (ix2 k (colOf i)) - meanR H (colOf i)) * (H (ix2 k (colOf i)) - meanR H (colOf i))) rowsW + epsW))
      * g (ix1 (colOf i)) + be (ix1 (colOf i))) zeroW

/-- Everything after the normalised features `hr`: `aggregate((hr · ns) W₂) · nd + b₂`. -/
def tailOut (hr : S100000x128.Idx → EReal) : S100000x64.Idx → EReal :=
  scaleShift (aggregate64 (F := Ideal) src dst (scaledProduct hr (normCol src) w2)) (normCol dst)
    (shapeCast S1x64 b2 shapeCasts_S64_S1x64)

end Cert.Bridge

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.KRegion0.lean ====
/-
  The first launch: the node features, each row scaled by its source normalisation, times the first weight matrix.

  The launch walks ten blocks of 10000 rows.  At a block it forms `(X · s)` — each row of the block of `X` times
  that row's entry of the column `s` —, and multiplies by the whole weight matrix into a zero accumulator; a
  change of float format on the way in is the identity over the extended reals.  So entry `(p, q)` of the
  block is `∑ₖ (X(p,k) · s(p)) · W(k,q)`, the blocks are restrictions of ONE function of the whole arrays
  (`scaledProduct`), every block is written back, and the blocks cover the result array.
-/
import proofs.«164736_j21964462752266_1_alg».proof.Proof.Gen.KernelIdeal.Frame
import proofs.«164736_j21964462752266_1_alg».proof.Proof.Stages
import proofs.«164736_j21964462752266_1_alg».proof.Proof.LibRepeat
import proofs.«164736_j21964462752266_1_alg».proof.Proof.LibPlainProduct
import Idealize.ShloMosaic.Lib.Pipeline.Value
import Idealize.ShloMosaic.Lib.ValueIdx
import Idealize.ShloMosaic.PureOps.Ideal.Laws

noncomputable section

namespace Cert.Bridge.Region0

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open scoped BigOperators

theorem hz : (![0, 0] : Fin 2 → Nat) = fun _ => 0 := funext fun a => by fin_cases a <;> rfl

/-- The body's value at `(p, q)` of a block: the scaled rows times the weights, as a sum over the contracted coordinate. -/
theorem payload (x0 : Vec Ideal S10000x128 .f32) (x1 : Vec Ideal S10000x1 .f32) (x2 : Vec Ideal S128x128 .f32)
    (p : Fin 10000) (q : Fin 128) :
    k0_pay1 x0 x1 x2 (ix2 p q) = ∑ k : Fin 128, (x0 (ix2 p k) * x1 (ix2 p (0 : Fin 1))) * x2 (ix2 k q) := by
  unfold k0_pay1
  simp only [shapeCast_self]
  rw [Cert.PlainProduct.matmul_plain_apply dot_S10000x128_S128x128_S10000x128_1_0_0_1_n_n rfl]
  refine Finset.sum_congr rfl fun k _ => ?_
  show (x0 (ix2 p k) * broadcastTo S10000x128 x1 broadcasts_S10000x1_S10000x128 (ix2 p k)) * x2 (ix2 k q) = _
  rw [Cert.Lib.Repeat.colRepeat_apply]

/-- The printed index maps, decided once over the grid: the row-blocked windows sit at block `(t, 0)`, the whole-array windows at `(0, 0)`. -/
theorem idx_facts : ∀ t : Fin cfg0.N,
    (win0_3.index t (0 : Fin 2) = t.val ∧ win0_3.index t (1 : Fin 2) = 0)
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the scaled product of the arrays as the launch finds them. -/
theorem flushed_eq (c : Dev nD) (t : Fin cfg0.N) :
    (dat0 V c).flushed 3 t = ((cfg0.win 3).blk t).view.read (Elt Ideal)
      (scaledProduct (V c main_arg0) (V c main_v13) (V c main_arg3)) := by
  show (cfg0.win 3).cut (grid0.coords t) ((dat0 V c).after 3 t) = _
  rw [after0_3]
  unfold out0_3
  rw [View.canon_unit_zero hz]
  simp only [View.ld_unit_zero (S := S10000x128) hz, View.ld_unit_zero (S := S10000x1) hz, View.ld_unit_zero (S := S128x128) hz]
  obtain ⟨⟨eo0, eo1⟩, e00, e01, e10, e11, e20, e21⟩ := idx_facts t
  funext j
  obtain ⟨p, q, rfl⟩ : ∃ (p : Fin 10000) (q : Fin 128), j = ix2 p q := ⟨j 0, j 1, eq_ix2 j⟩
  show k0_pay1 (iblk0 V c 0 t) (iblk0 V c 1 t) (iblk0 V c 2 t) (ix2 p q)
    = scaledProduct (V c main_arg0) (V c main_v13) (V c main_arg3) (((cfg0.win 3).blk t).view.emb (ix2 p q))
  rw [payload]
  unfold scaledProduct
  refine Finset.sum_congr rfl fun k _ => ?_
  have E0 : ((cfg0.win 0).blk t).view.emb (ix2 p k) = ix2 (rowOf (((cfg0.win 3).blk t).view.emb (ix2 p q))) k := by
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have E1 : ((cfg0.win 1).blk t).view.emb (ix2 p (0 : Fin 1)) = ix2 (rowOf (((cfg0.win 3).blk t).view.emb (ix2 p q))) (0 : Fin 1) := by
    funext a; apply Fin.ext
    match a with
    | ⟨0, _⟩ => show win0_1.index t (0 : Fin 2) * 10000 + 1 * p.val = win0_3.index t (0 : Fin 2) * 10000 + 1 * p.val; omega
    | ⟨1, _⟩ => show win0_1.index t (1 : Fin 2) * 1 + 1 * 0 = 0; omega
  have E2 : ((cfg0.win 2).blk t).view.emb (ix2 k q) = ix2 k (colOf (((cfg0.win 3).blk t).view.emb (ix2 p q))) := by
    funext a; apply Fin.ext
    match a with
    | ⟨0, _⟩ => show win0_2.index t (0 : Fin 2) * 128 + 1 * k.val = k.val; omega
    | ⟨1, _⟩ => show win0_2.index t (1 : Fin 2) * 128 + 1 * q.val = win0_3.index t (1 : Fin 2) * 128 + 1 * q.val; omega
  let A : S100000x128.Idx → EReal := V c main_arg0
  let s : S100000x1.Idx → EReal := V c main_v13
  let B : S128x128.Idx → EReal := V c main_arg3
  show (A (((cfg0.win 0).blk t).view.emb (ix2 p k)) * s (((cfg0.win 1).blk t).view.emb (ix2 p (0 : Fin 1))))
      * B (((cfg0.win 2).blk t).view.emb (ix2 k q))
    = (A (ix2 (rowOf (((cfg0.win 3).blk t).view.emb (ix2 p q))) k) * s (ix2 (rowOf (((cfg0.win 3).blk t).view.emb (ix2 p q))) (0 : Fin 1))) * B (ix2 k (colOf (((cfg0.win 3).blk t).view.emb (ix2 p q))))
  rw [E0, E1, E2]

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v14).slice (win0_3.rect t)).set ↔ _
  rw [View.set_slice_whole, Rect.mem_set_unit]
  exact Iff.rfl

/-- Every row belongs to the block of the point `row / 10000`, and every point writes its block back. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_3 _, ?_⟩
  rw [mem_blk]
  have eo := (idx_facts ⟨(i 0).val / 10000, by rw [hN]; omega⟩).1
  intro a
  match a with
  | ⟨0, _⟩ => show win0_3.index _ (0 : Fin 2) * 10000 ≤ (i 0).val ∧ (i 0).val < win0_3.index _ (0 : Fin 2) * 10000 + 10000; rw [eo.1]; dsimp only; omega
  | ⟨1, _⟩ => show win0_3.index _ (1 : Fin 2) * 128 ≤ (i 1).val ∧ (i 1).val < win0_3.index _ (1 : Fin 2) * 128 + 128; rw [eo.2]; omega

/-- THE RESULT ARRAY of the launch: the rows scaled by the column, times the weights. -/
theorem value (c : Dev nD) : (dat0 V c).arrAt 3 cfg0.N = scaledProduct (V c main_arg0) (V c main_v13) (V c main_arg3) :=
  (dat0 V c).arrAt_eq_of_cover 3 _ (fun t _ => flushed_eq V c t) cover

end Cert.Bridge.Region0

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.KRegion1.lean ====
/-
  The launch that takes the batch-normalisation statistics: the two rows of column sums it leaves.

  The launch runs over a grid of ten points. At point `t` its body reads rows `10000·t, …, 10000·t + 9999` of the
  `100000 × 128` array `agg` and of the `100000 × 1` column `norm`, and the whole `1 × 128` row `bias`; it forms, on
  that block, `h(n, j) = agg(n, j) · norm(n) + bias(j)`; and it adds to two `1 × 128` rows, which stay in place over the
  whole grid, the sums down the block's rows of `h` and of `h · h`. The two rows are set to zero at point 0, before the
  first addition, and are written back to their arrays once, after point 9.

  Over the extended reals this module shows that the first array ends holding, at column `j`, `∑ₙ h(n, j)` over all
  100000 rows, and the second `∑ₙ h(n, j)²`:

    * each control case's stores, read back as one value: at point 0 the zero row plus the block's sums, at a later
      point the row found there plus the block's sums (`out_A_3`, `out_A_4`, `out_B_3`, `out_B_4`);
    * the arithmetic of one point read at an index: the scaled and shifted entry, the sum down the rows of a block at
      one lane as a finite sum over the 10000 rows, the zero row (`pay3_apply` … `pay5_apply`);
    * an entry of a point's block is the entry of the whole array in row `10000·t + k` (`blk0_apply`, `blk1_apply`,
      `blk2_apply`, `entry_eq`);
    * by induction on the point, after point `n` each row holds the sum of the block sums of blocks `0, …, n`
      (`point_A`, `point_B`, `outsAt_eq`): addition of extended reals is commutative and associative, and `0 + x = x`;
    * ten blocks of 10000 rows are the 100000 rows, so after point 9 the rows hold the sums over all rows (`regroup`,
      `last_eq`);
    * the one write-back, after point 9, covers each one-row array, which therefore ends holding those sums
      (`flushed3_eq`, `flushed4_eq`, `cover3`, `cover4`, `sum_value`, `sumsq_value`).

  The run of the body at each control case, the pieces its stores leave, and the recursion over the points are the
  imported generated frame's; the regrouping of a finite sum into equal blocks and the reading of a repeated row or
  column at an index are the imported library modules'.
-/
import proofs.«164736_j21964462752266_1_alg».proof.Proof.Gen.KernelIdeal.Frame
import proofs.«164736_j21964462752266_1_alg».proof.Proof.Stages
import proofs.«164736_j21964462752266_1_alg».proof.Proof.LibBlockSum
import proofs.«164736_j21964462752266_1_alg».proof.Proof.LibRepeat
import Idealize.ShloMosaic.PureOps.Ideal.Laws
import Idealize.ShloMosaic.Lib.Pipeline.Value
import Idealize.ShloMosaic.Lib.ValueIdx
import Idealize.ShloMosaic.Lib.Tactic

noncomputable section

namespace Cert.Bridge.Region1

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open scoped BigOperators

/-- The zero offsets of a whole-buffer access, however spelt. -/
theorem hz : (![0, 0] : Fin 2 → Nat) = fun _ => 0 := funext fun a => by fin_cases a <;> rfl

/-! ## What each control case leaves in the two outputs' staging rows -/

section Cases
variable {F : FTy → Type} [FloatOps F]

/-- A later point (not the first): the first output's staging row, holding `y3`, is left at `y3` plus the block's
    column sums — the one covering store's value, its loads reading the whole buffers. -/
theorem out_B_3 (c : Dev nD) (i : grid1.Coords) (a1 : Memref sig .tc .vmem S10000x128 .f32) (h1 : a1.IsWhole)
    (a2 : Memref sig .tc .vmem S10000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S10000x128 .f32) (x1 : Vec F S10000x1 .f32) (x2 : Vec F S1x128 .f32)
    (y3 y4 : Vec F S1x128 .f32) :
    out1_B_3 c i a1 h1 a2 h2 a3 h3 a4 h4 a5 h5 hc x0 x1 x2 y3 y4 = k1_pay4 x0 x1 x2 y3 := by
  unfold out1_B_3
  rw [View.read_writes_eq_canon _ _ _ (cover1_B_3 c i a1 h1 a2 h2 a3 h3 a4 h4 a5 h5 hc x0 x1 x2 y3 y4)]
  unfold kernelRun1_B
  dsimp only
  rw [View.canon_unit_zero hz]
  simp only [View.readAt_eq_ld, h1.read_unread, h2.read_unread, h3.read_unread, h4.read_unread, h5.read_unread,
    View.ld_unit_zero (S := S10000x128) hz, View.ld_unit_zero (S := S10000x1) hz, View.ld_unit_zero (S := S1x128) hz]

/-- A later point: the second output's staging row, holding `y4`, is left at `y4` plus the column sums of the block's
    squares. -/
theorem out_B_4 (c : Dev nD) (i : grid1.Coords) (a1 : Memref sig .tc .vmem S10000x128 .f32) (h1 : a1.IsWhole)
    (a2 : Memref sig .tc .vmem S10000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S10000x128 .f32) (x1 : Vec F S10000x1 .f32) (x2 : Vec F S1x128 .f32)
    (y3 y4 : Vec F S1x128 .f32) :
    out1_B_4 c i a1 h1 a2 h2 a3 h3 a4 h4 a5 h5 hc x0 x1 x2 y3 y4 = k1_pay5 x0 x1 x2 y4 := by
  unfold out1_B_4
  rw [View.read_writes_eq_canon _ _ _ (cover1_B_4 c i a1 h1 a2 h2 a3 h3 a4 h4 a5 h5 hc x0 x1 x2 y3 y4)]
  unfold kernelRun1_B
  dsimp only
  rw [View.canon_unit_zero hz]
  simp only [View.readAt_eq_ld, h1.read_unread, h2.read_unread, h3.read_unread, h4.read_unread, h5.read_unread,
    View.ld_unit_zero (S := S10000x128) hz, View.ld_unit_zero (S := S10000x1) hz, View.ld_unit_zero (S := S1x128) hz]

/-- The first point: the body stores the zero row, reads it back, and leaves it plus the block's column sums. -/
theorem out_A_3 (c : Dev nD) (i : grid1.Coords) (a1 : Memref sig .tc .vmem S10000x128 .f32) (h1 : a1.IsWhole)
    (a2 : Memref sig .tc .vmem S10000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S10000x128 .f32) (x1 : Vec F S10000x1 .f32) (x2 : Vec F S1x128 .f32) :
    out1_A_3 c i a1 h1 a2 h2 a3 h3 a4 h4 a5 h5 hc x0 x1 x2 = k1_pay4 x0 x1 x2 k1_pay1 := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S10000x128) hz, View.ld_unit_zero (S := S10000x1) hz, View.ld_unit_zero (S := S1x128) hz]

/-- The first point, second output: the zero row plus the column sums of the block's squares. -/
theorem out_A_4 (c : Dev nD) (i : grid1.Coords) (a1 : Memref sig .tc .vmem S10000x128 .f32) (h1 : a1.IsWhole)
    (a2 : Memref sig .tc .vmem S10000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S10000x128 .f32) (x1 : Vec F S10000x1 .f32) (x2 : Vec F S1x128 .f32) :
    out1_A_4 c i a1 h1 a2 h2 a3 h3 a4 h4 a5 h5 hc x0 x1 x2 = k1_pay5 x0 x1 x2 k1_pay2 := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S10000x128) hz, View.ld_unit_zero (S := S10000x1) hz, View.ld_unit_zero (S := S1x128) hz]
end Cases

/-! ## The arithmetic of one point, read at an index over the extended reals -/

/-- The scaled and shifted block: entry `(p, q)` is `x0(p,q) · x1(p) + x2(q)`. -/
theorem pay3_apply (x0 : Vec Ideal S10000x128 .f32) (x1 : Vec Ideal S10000x1 .f32) (x2 : Vec Ideal S1x128 .f32)
    (p : Fin 10000) (q : Fin 128) :
    k1_pay3 x0 x1 x2 (ix2 p q) = x0 (ix2 p q) * x1 (ix2 p (0 : Fin 1)) + x2 (ix2 (0 : Fin 1) q) := by
  unfold k1_pay3
  simp only [shapeCast_self]
  show x0 (ix2 p q) * broadcastTo S10000x128 x1 broadcasts_S10000x1_S10000x128 (ix2 p q)
      + broadcastTo S10000x128 x2 broadcasts_S1x128_S10000x128 (ix2 p q) = _
  rw [Cert.Lib.Repeat.colRepeat_apply, Cert.Lib.Repeat.rowRepeat_apply]

/-- A length-128 vector cast to one row reads, at `(0, q)`, the vector at `q`. -/
theorem row_of_vec {α : Type} (x : S128.Idx → α) (q : Fin 128) :
    shapeCast S1x128 x shapeCasts_S128_S1x128 (ix2 (0 : Fin 1) q) = x (ix1 q) :=
  shapeCast_apply x shapeCasts_S128_S1x128 (ix2 (0 : Fin 1) q) (ix1 q) (by
    rw [Shape.rowMajor_val_two, Shape.rowMajor_val_one]; show q.val = 0 * 128 + q.val; omega)

/-- The sum down the rows of a block, at lane `q`: the sum over the 10000 rows of the entries of column `q`. -/
theorem laneSum_apply (H : FVec Ideal S10000x128 .f32) (q : Fin 128) :
    multiReduction (F := Ideal) .add [0] S128 H 0x00000000#32 reduces_S10000x128_S128 (.inl rfl) rfl (ix1 q)
      = ∑ k : Fin 10000, H (ix2 k q) := by
  refine (Ideal.multiReduction_add_single H 0x00000000#32 reduces_S10000x128_S128 (.inl rfl) rfl (ix1 q)).trans ?_
  refine Finset.sum_congr rfl fun k _ => congrArg H ?_
  funext a
  apply Fin.ext
  match a with
  | ⟨0, _⟩ => rfl
  | ⟨1, _⟩ => rfl

/-- The zero row the first point stores reads `0` everywhere. -/
theorem pay1_apply (q : Fin 128) : (k1_pay1 (F := Ideal)) (ix2 (0 : Fin 1) q) = 0 := by
  unfold k1_pay1
  exact Ideal.ofBits_zero_f32

/-- The zero row stored to the second output reads `0` everywhere. -/
theorem pay2_apply (q : Fin 128) : (k1_pay2 (F := Ideal)) (ix2 (0 : Fin 1) q) = 0 := by
  unfold k1_pay2
  exact Ideal.ofBits_zero_f32

/-- The first output's new contents: the old row plus the column sums of the scaled and shifted block. -/
theorem pay4_apply (x0 : Vec Ideal S10000x128 .f32) (x1 : Vec Ideal S10000x1 .f32) (x2 : Vec Ideal S1x128 .f32)
    (y : Vec Ideal S1x128 .f32) (q : Fin 128) :
    k1_pay4 x0 x1 x2 y (ix2 (0 : Fin 1) q) = y (ix2 (0 : Fin 1) q) + ∑ k : Fin 10000, k1_pay3 x0 x1 x2 (ix2 k q) := by
  unfold k1_pay4
  simp only [shapeCast_self]
  show y (ix2 (0 : Fin 1) q) + shapeCast S1x128 (multiReduction (F := Ideal) .add [0] S128 (k1_pay3 x0 x1 x2) 0x00000000#32
      reduces_S10000x128_S128 (.inl rfl) rfl) shapeCasts_S128_S1x128 (ix2 (0 : Fin 1) q) = _
  rw [row_of_vec, laneSum_apply]

/-- The second output's new contents: the old row plus the column sums of the squares of the scaled and shifted block. -/
theorem pay5_apply (x0 : Vec Ideal S10000x128 .f32) (x1 : Vec Ideal S10000x1 .f32) (x2 : Vec Ideal S1x128 .f32)
    (y : Vec Ideal S1x128 .f32) (q : Fin 128) :
    k1_pay5 x0 x1 x2 y (ix2 (0 : Fin 1) q)
      = y (ix2 (0 : Fin 1) q) + ∑ k : Fin 10000, k1_pay3 x0 x1 x2 (ix2 k q) * k1_pay3 x0 x1 x2 (ix2 k q) := by
  unfold k1_pay5
  simp only [shapeCast_self]
  show y (ix2 (0 : Fin 1) q) + shapeCast S1x128 (multiReduction (F := Ideal) .add [0] S128
      (mulf (k1_pay3 x0 x1 x2) (k1_pay3 x0 x1 x2)) 0x00000000#32
      reduces_S10000x128_S128 (.inl rfl) rfl) shapeCasts_S128_S1x128 (ix2 (0 : Fin 1) q) = _
  rw [row_of_vec, laneSum_apply]
  rfl

/-! ## The blocks of a point, as entries of the whole arrays -/

/-- Row `n` of the 100000-row arrays (taken modulo the number of rows, so that it is defined at every natural number). -/
def rowAt (n : ℕ) : Fin 100000 := ⟨n % 100000, Nat.mod_lt _ (by norm_num)⟩

theorem rowAt_val {n : ℕ} (h : n < 100000) : (rowAt n).val = n := Nat.mod_eq_of_lt h

/-- Where each window's block sits at point `t`: the two row-blocked inputs at block `t`, the rest at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- Entry `(k, q)` of the first input's block at point `t` is entry `(10000 t + k, q)` of the array. -/
theorem blk0_apply (c : Dev nD) (t : Fin cfg1.N) (k : Fin 10000) (q : Fin 128) :
    (iblk1 V c 0 t : Vec Ideal S10000x128 .f32) (ix2 k q) = V c main_v24 (ix2 (rowAt (10000 * t.val + k.val)) q) := by
  obtain ⟨e00, e01, -⟩ := idx_facts t
  have hN : cfg1.N = 10 := N_1
  have ht : t.val < 10 := hN ▸ t.isLt
  have E : ((cfg1.win 0).blk t).view.emb (ix2 k q) = ix2 (rowAt (10000 * t.val + k.val)) q := by
    funext a; apply Fin.ext
    match a with
    | ⟨0, _⟩ => show win1_0.index t (0 : Fin 2) * 10000 + 1 * k.val = (rowAt (10000 * t.val + k.val)).val
                rw [rowAt_val (by omega)]; omega
    | ⟨1, _⟩ => show win1_0.index t (1 : Fin 2) * 128 + 1 * q.val = q.val; omega
  show V c main_v24 (((cfg1.win 0).blk t).view.emb (ix2 k q)) = _
  rw [E]

/-- Entry `(k, 0)` of the second input's block at point `t` is entry `(10000 t + k, 0)` of the array. -/
theorem blk1_apply (c : Dev nD) (t : Fin cfg1.N) (k : Fin 10000) :
    (iblk1 V c 1 t : Vec Ideal S10000x1 .f32) (ix2 k (0 : Fin 1)) = V c main_v25 (ix2 (rowAt (10000 * t.val + k.val)) (0 : Fin 1)) := by
  obtain ⟨-, -, e10, e11, -⟩ := idx_facts t
  have hN : cfg1.N = 10 := N_1
  have ht : t.val < 10 := hN ▸ t.isLt
  have E : ((cfg1.win 1).blk t).view.emb (ix2 k (0 : Fin 1)) = ix2 (rowAt (10000 * t.val + k.val)) (0 : Fin 1) := by
    funext a; apply Fin.ext
    match a with
    | ⟨0, _⟩ => show win1_1.index t (0 : Fin 2) * 10000 + 1 * k.val = (rowAt (10000 * t.val + k.val)).val
                rw [rowAt_val (by omega)]; omega
    | ⟨1, _⟩ => show win1_1.index t (1 : Fin 2) * 1 + 1 * 0 = 0; omega
  show V c main_v25 (((cfg1.win 1).blk t).view.emb (ix2 k (0 : Fin 1))) = _
  rw [E]

/-- The third input's block is the whole one-row array at every point. -/
theorem blk2_apply (c : Dev nD) (t : Fin cfg1.N) (q : Fin 128) :
    (iblk1 V c 2 t : Vec Ideal S1x128 .f32) (ix2 (0 : Fin 1) q) = V c main_v26 (ix2 (0 : Fin 1) q) := by
  obtain ⟨-, -, -, -, e20, e21, -⟩ := idx_facts t
  have E : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  show V c main_v26 (((cfg1.win 2).blk t).view.emb (ix2 (0 : Fin 1) q)) = _
  rw [E]

/-! ## What the two outputs hold after each point -/

/-- The scaled and shifted array `agg · norm + bias`, over the whole 100000 rows. -/
abbrev hArr (c : Dev nD) : S100000x128.Idx → EReal := scaleShift (V c main_v24) (V c main_v25) (V c main_v26)

/-- The sum of column `q` of the scaled and shifted array over the rows of block `p`. -/
def blockSum (c : Dev nD) (q : Fin 128) (p : ℕ) : EReal :=
  ∑ k : Fin 10000, hArr V c (ix2 (rowAt (10000 * p + k.val)) q)

/-- The sum of the squares of column `q` of the scaled and shifted array over the rows of block `p`. -/
def blockSqSum (c : Dev nD) (q : Fin 128) (p : ℕ) : EReal :=
  ∑ k : Fin 10000, sq (hArr V c) (ix2 (rowAt (10000 * p + k.val)) q)

/-- One entry of a block's scaled and shifted values is the array's entry in the block's row. -/
theorem entry_eq (c : Dev nD) (t : Fin cfg1.N) (k : Fin 10000) (q : Fin 128) :
    k1_pay3 (F := Ideal) (iblk1 V c 0 t) (iblk1 V c 1 t) (iblk1 V c 2 t) (ix2 k q)
      = hArr V c (ix2 (rowAt (10000 * t.val + k.val)) q) := by
  rw [pay3_apply, blk0_apply, blk1_apply, blk2_apply]
  rfl

/-- At the first point the outputs are reset and then hold the first block's sums. -/
theorem point_A (c : Dev nD) (t : Fin cfg1.N) (h0 : t.val % 10 = 0) (q : Fin 128) :
    (outsAt1 V c t.val t.isLt).1 (ix2 (0 : Fin 1) q) = blockSum V c q t.val
    ∧ (outsAt1 V c t.val t.isLt).2 (ix2 (0 : Fin 1) q) = blockSqSum V c q t.val := by
  rw [outsAt1_A V c t h0]
  dsimp only
  rw [out_A_3, out_A_4, pay4_apply, pay5_apply, pay1_apply, pay2_apply, zero_add, zero_add]
  exact ⟨Finset.sum_congr rfl fun k _ => entry_eq V c t k q,
    Finset.sum_congr rfl fun k _ => by rw [entry_eq V c t k q]; rfl⟩

/-- At every later point each output adds its block's sums to what the point before left. -/
theorem point_B (c : Dev nD) (t : Fin cfg1.N) (h0 : ¬t.val % 10 = 0) (q : Fin 128) :
    (outsAt1 V c t.val t.isLt).1 (ix2 (0 : Fin 1) q)
      = (outsAt1 V c (t.val - 1) (Nat.lt_of_le_of_lt (Nat.sub_le _ _) t.isLt)).1 (ix2 (0 : Fin 1) q) + blockSum V c q t.val
    ∧ (outsAt1 V c t.val t.isLt).2 (ix2 (0 : Fin 1) q)
      = (outsAt1 V c (t.val - 1) (Nat.lt_of_le_of_lt (Nat.sub_le _ _) t.isLt)).2 (ix2 (0 : Fin 1) q) + blockSqSum V c q t.val := by
  rw [outsAt1_B V c t h0]
  dsimp only
  rw [out_B_3, out_B_4, pay4_apply, pay5_apply]
  exact ⟨congrArg _ (Finset.sum_congr rfl fun k _ => entry_eq V c t k q),
    congrArg _ (Finset.sum_congr rfl fun k _ => by rw [entry_eq V c t k q]; rfl)⟩

/-- So after point `n` the outputs hold the sums over the blocks `0, …, n`: by induction on the point. -/
theorem outsAt_eq (c : Dev nD) (q : Fin 128) : ∀ (n : ℕ) (h : n < cfg1.N),
    (outsAt1 V c n h).1 (ix2 (0 : Fin 1) q) = ∑ p ∈ Finset.range (n + 1), blockSum V c q p
    ∧ (outsAt1 V c n h).2 (ix2 (0 : Fin 1) q) = ∑ p ∈ Finset.range (n + 1), blockSqSum V c q p
  | 0, h => by
    rw [Finset.sum_range_one, Finset.sum_range_one]
    exact point_A V c ⟨0, h⟩ rfl q
  | n + 1, h => by
    have hN : cfg1.N = 10 := N_1
    have hB : ¬(⟨n + 1, h⟩ : Fin cfg1.N).val % 10 = 0 := by dsimp only; omega
    obtain ⟨ih3, ih4⟩ := outsAt_eq c q n (Nat.lt_of_succ_lt h)
    obtain ⟨s3, s4⟩ := point_B V c ⟨n + 1, h⟩ hB q
    rw [Finset.sum_range_succ _ (n + 1), Finset.sum_range_succ _ (n + 1), ← ih3, ← ih4]
    exact ⟨s3, s4⟩

/-! ## The result arrays -/

/-- Ten blocks of 10000 rows are the 100000 rows: the sums over the blocks add up to the sum over all rows. -/
theorem regroup (G : Fin 100000 → EReal) :
    ∑ p ∈ Finset.range 10, ∑ k : Fin 10000, G (rowAt (10000 * p + k.val)) = ∑ n : Fin 100000, G n := by
  rw [Finset.sum_range, Cert.Lib.BlockSum.sum_eq_sum_blocks 10 10000 (by norm_num) G]
  refine Finset.sum_congr rfl fun p _ => Finset.sum_congr rfl fun k _ => congrArg G (Fin.ext ?_)
  exact rowAt_val (by have := p.isLt; have := k.isLt; omega)

/-- After the last point the outputs hold the column sums over all rows. -/
theorem last_eq (c : Dev nD) (t : Fin cfg1.N) (h9 : t.val = 9) (q : Fin 128) :
    (outsAt1 V c t.val t.isLt).1 (ix2 (0 : Fin 1) q) = colSum (hArr V c) (ix2 (0 : Fin 1) q)
    ∧ (outsAt1 V c t.val t.isLt).2 (ix2 (0 : Fin 1) q) = colSum (sq (hArr V c)) (ix2 (0 : Fin 1) q) := by
  obtain ⟨s3, s4⟩ := outsAt_eq V c q t.val t.isLt
  rw [s3, s4, h9]
  exact ⟨regroup (fun n => hArr V c (ix2 n q)), regroup (fun n => sq (hArr V c) (ix2 n q))⟩

/-- An output's block is the whole one-row array: entry `(p, q)` of the block is entry `(0, q)` of the array. -/
theorem emb3 (t : Fin cfg1.N) (p : Fin 1) (q : Fin 128) :
    ((cfg1.win 3).blk t).view.emb (ix2 p q) = ix2 (0 : Fin 1) q := by
  obtain ⟨-, -, -, -, -, -, e30, e31, -⟩ := idx_facts t
  funext a; apply Fin.ext
  match a with
  | ⟨0, _⟩ => show win1_3.index t (0 : Fin 2) * 1 + 1 * p.val = 0; omega
  | ⟨1, _⟩ => show win1_3.index t (1 : Fin 2) * 128 + 1 * q.val = q.val; omega

/-- The same for the second output. -/
theorem emb4 (t : Fin cfg1.N) (p : Fin 1) (q : Fin 128) :
    ((cfg1.win 4).blk t).view.emb (ix2 p q) = ix2 (0 : Fin 1) q := by
  obtain ⟨-, -, -, -, -, -, -, -, e40, e41⟩ := idx_facts t
  funext a; apply Fin.ext
  match a with
  | ⟨0, _⟩ => show win1_4.index t (0 : Fin 2) * 1 + 1 * p.val = 0; omega
  | ⟨1, _⟩ => show win1_4.index t (1 : Fin 2) * 128 + 1 * q.val = q.val; omega

/-- A write-back of the first output writes a given one-row array as soon as the staging buffer agrees with it
    entry by entry (the buffer and the array are kept as variables: nothing is compared by unfolding). -/
theorem flushed3_of (c : Dev nD) (t : Fin cfg1.N) (Y : Vec Ideal S1x128 .f32) (G : S1x128.Idx → EReal)
    (hY : (dat1 V c).after 3 t = Y) (hpt : ∀ q : Fin 128, Y (ix2 (0 : Fin 1) q) = G (ix2 (0 : Fin 1) q)) :
    (dat1 V c).flushed 3 t = ((cfg1.win 3).blk t).view.read (Elt Ideal) G := by
  show (cfg1.win 3).cut (grid1.coords t) ((dat1 V c).after 3 t) = _
  rw [hY]
  funext j
  obtain ⟨p, q, rfl⟩ : ∃ (p : Fin 1) (q : Fin 128), j = ix2 p q := ⟨j 0, j 1, eq_ix2 j⟩
  obtain rfl : p = 0 := Subsingleton.elim _ _
  show Y (ix2 (0 : Fin 1) q) = G (((cfg1.win 3).blk t).view.emb (ix2 (0 : Fin 1) q))
  rw [emb3]
  exact hpt q

/-- The same for the second output. -/
theorem flushed4_of (c : Dev nD) (t : Fin cfg1.N) (Y : Vec Ideal S1x128 .f32) (G : S1x128.Idx → EReal)
    (hY : (dat1 V c).after 4 t = Y) (hpt : ∀ q : Fin 128, Y (ix2 (0 : Fin 1) q) = G (ix2 (0 : Fin 1) q)) :
    (dat1 V c).flushed 4 t = ((cfg1.win 4).blk t).view.read (Elt Ideal) G := by
  show (cfg1.win 4).cut (grid1.coords t) ((dat1 V c).after 4 t) = _
  rw [hY]
  funext j
  obtain ⟨p, q, rfl⟩ : ∃ (p : Fin 1) (q : Fin 128), j = ix2 p q := ⟨j 0, j 1, eq_ix2 j⟩
  obtain rfl : p = 0 := Subsingleton.elim _ _
  show Y (ix2 (0 : Fin 1) q) = G (((cfg1.win 4).blk t).view.emb (ix2 (0 : Fin 1) q))
  rw [emb4]
  exact hpt q

/-- The one write-back of the first output, after the last point, writes the column sums. -/
theorem flushed3_eq (c : Dev nD) (t : Fin cfg1.N) (hf : (cfg1.win 3).flush t = true) :
    (dat1 V c).flushed 3 t = ((cfg1.win 3).blk t).view.read (Elt Ideal) (colSum (hArr V c)) := by
  have hN : cfg1.N = 10 := N_1
  have h9 : t.val = 9 := by have := (flush1_3 t).mp hf; have := t.isLt; omega
  exact flushed3_of V c t _ _ (after1_3 V c t) fun q => (last_eq V c t h9 q).1

/-- The one write-back of the second output, after the last point, writes the column sums of the squares. -/
theorem flushed4_eq (c : Dev nD) (t : Fin cfg1.N) (hf : (cfg1.win 4).flush t = true) :
    (dat1 V c).flushed 4 t = ((cfg1.win 4).blk t).view.read (Elt Ideal) (colSum (sq (hArr V c))) := by
  have hN : cfg1.N = 10 := N_1
  have h9 : t.val = 9 := by have := (flush1_4 t).mp hf; have := t.isLt; omega
  exact flushed4_of V c t _ _ (after1_4 V c t) fun q => (last_eq V c t h9 q).2

/-- An index of a one-row output is in point `t`'s block iff each coordinate is in the block's range on its axis. -/
theorem mem_blk3 (t : Fin cfg1.N) (i : S1x128.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v27_0).slice (win1_3.rect t)).set ↔ _
  rw [View.set_slice_whole, Rect.mem_set_unit]
  exact Iff.rfl

/-- The same for the second output. -/
theorem mem_blk4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v27_1).slice (win1_4.rect t)).set ↔ _
  rw [View.set_slice_whole, Rect.mem_set_unit]
  exact Iff.rfl

/-- The last point, the one that writes back. -/
def tLast : Fin cfg1.N := ⟨9, by rw [show cfg1.N = 10 from N_1]; norm_num⟩

/-- The last point's block covers the whole first output. -/
theorem cover3 (i : S1x128.Idx) : ∃ t : Fin cfg1.N, (cfg1.win 3).flush t = true ∧ i ∈ ((cfg1.win 3).blk t).view.set := by
  have hi0 : (i 0).val < 1 := (i 0).isLt
  have hi1 : (i 1).val < 128 := (i 1).isLt
  refine ⟨tLast, (flush1_3 tLast).mpr rfl, ?_⟩
  rw [mem_blk3]
  obtain ⟨-, -, -, -, -, -, e30, e31, -⟩ := idx_facts tLast
  intro a
  match a with
  | ⟨0, _⟩ => show win1_3.index _ (0 : Fin 2) * 1 ≤ (i 0).val ∧ (i 0).val < win1_3.index _ (0 : Fin 2) * 1 + 1; rw [e30]; omega
  | ⟨1, _⟩ => show win1_3.index _ (1 : Fin 2) * 128 ≤ (i 1).val ∧ (i 1).val < win1_3.index _ (1 : Fin 2) * 128 + 128; rw [e31]; omega

/-- The last point's block covers the whole second output. -/
theorem cover4 (i : S1x128.Idx) : ∃ t : Fin cfg1.N, (cfg1.win 4).flush t = true ∧ i ∈ ((cfg1.win 4).blk t).view.set := by
  have hi0 : (i 0).val < 1 := (i 0).isLt
  have hi1 : (i 1).val < 128 := (i 1).isLt
  refine ⟨tLast, (flush1_4 tLast).mpr rfl, ?_⟩
  rw [mem_blk4]
  obtain ⟨-, -, -, -, -, -, -, -, e40, e41⟩ := idx_facts tLast
  intro a
  match a with
  | ⟨0, _⟩ => show win1_4.index _ (0 : Fin 2) * 1 ≤ (i 0).val ∧ (i 0).val < win1_4.index _ (0 : Fin 2) * 1 + 1; rw [e40]; omega
  | ⟨1, _⟩ => show win1_4.index _ (1 : Fin 2) * 128 ≤ (i 1).val ∧ (i 1).val < win1_4.index _ (1 : Fin 2) * 128 + 128; rw [e41]; omega

/-- THE FIRST RESULT ARRAY of the launch: the column sums of `agg · norm + bias` over all 100000 rows. -/
theorem sum_value (c : Dev nD) :
    (dat1 V c).arrAt 3 cfg1.N = colSum (scaleShift (V c main_v24) (V c main_v25) (V c main_v26)) :=
  (dat1 V c).arrAt_eq_of_cover 3 (colSum (hArr V c)) (flushed3_eq V c) cover3

/-- THE SECOND RESULT ARRAY of the launch: the column sums of the squares of `agg · norm + bias` over all 100000 rows. -/
theorem sumsq_value (c : Dev nD) :
    (dat1 V c).arrAt 4 cfg1.N = colSum (sq (scaleShift (V c main_v24) (V c main_v25) (V c main_v26))) :=
  (dat1 V c).arrAt_eq_of_cover 4 (colSum (sq (hArr V c))) (flushed4_eq V c) cover4

end Cert.Bridge.Region1

end
-- ==== Proof.KRegion2.lean ====
/-
  The third launch: batch normalisation with given statistics, then the rectifier.

  The launch walks ten blocks of 10000 rows.  At a block it forms `h = agg · norm + bias` entry by entry and returns
  `max(((h - mean) · rsqrt(var + ε)) · γ + β, 0)`, the five rows `bias, mean, var, γ, β` repeated down the block's rows
  and the column `norm` across its lanes.  The blocks are restrictions of ONE function of the whole arrays
  (`normRelu` of `scaleShift`), every block is written back, and the blocks cover the result array.
-/
import proofs.«164736_j21964462752266_1_alg».proof.Proof.Gen.KernelIdeal.Frame
import proofs.«164736_j21964462752266_1_alg».proof.Proof.Stages
import proofs.«164736_j21964462752266_1_alg».proof.Proof.LibRepeat
import Idealize.ShloMosaic.Lib.Pipeline.Value
import Idealize.ShloMosaic.Lib.ValueIdx
import Idealize.ShloMosaic.PureOps.Ideal.Laws

noncomputable section

namespace Cert.Bridge.Region2

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open scoped BigOperators

theorem hz : (![0, 0] : Fin 2 → Nat) = fun _ => 0 := funext fun a => by fin_cases a <;> rfl

/-- The body's value at `(p, q)` of a block (the body takes the variance row before the mean row). -/
theorem payload (x0 : Vec Ideal S10000x128 .f32) (x1 : Vec Ideal S10000x1 .f32) (xb xv xm xg xe : Vec Ideal S1x128 .f32)
    (p : Fin 10000) (q : Fin 128) :
    k2_pay1 x0 x1 xb xv xm xg xe (ix2 p q)
      = max (((x0 (ix2 p q) * x1 (ix2 p (0 : Fin 1)) + xb (ix2 (0 : Fin 1) q)) - xm (ix2 (0 : Fin 1) q))
            * Ideal.rsqrt (xv (ix2 (0 : Fin 1) q) + Ideal.ofBits .f32 0x3727C5AC#32) * xg (ix2 (0 : Fin 1) q) + xe (ix2 (0 : Fin 1) q)) (Ideal.ofBits .f32 0x00000000#32) := by
  unfold k2_pay1
  simp only [shapeCast_self]
  show max (((x0 (ix2 p q) * broadcastTo S10000x128 x1 broadcasts_S10000x1_S10000x128 (ix2 p q) + broadcastTo S10000x128 xb broadcasts_S1x128_S10000x128 (ix2 p q))
          - broadcastTo S10000x128 xm broadcasts_S1x128_S10000x128 (ix2 p q))
        * broadcastTo S10000x128 (rsqrt (F := Ideal) (addf xv (broadcast S1x128 (Scalar.ofBits (F := Ideal) .f32 0x3727C5AC#32)))) broadcasts_S1x128_S10000x128 (ix2 p q)
        * broadcastTo S10000x128 xg broadcasts_S1x128_S10000x128 (ix2 p q) + broadcastTo S10000x128 xe broadcasts_S1x128_S10000x128 (ix2 p q)) (Ideal.ofBits .f32 0x00000000#32) = _
  rw [Cert.Lib.Repeat.colRepeat_apply, Cert.Lib.Repeat.rowRepeat_apply, Cert.Lib.Repeat.rowRepeat_apply,
    Cert.Lib.Repeat.rowRepeat_apply, Cert.Lib.Repeat.rowRepeat_apply, Cert.Lib.Repeat.rowRepeat_apply]
  rfl

/-! The printed index maps, decided once over the grid, one window at a time: the row-blocked windows sit at block
    `(t, 0)`, the whole-array windows at `(0, 0)`. -/
theorem idx_w7 : ∀ t : Fin cfg2.N, win2_7.index t (0 : Fin 2) = t.val ∧ win2_7.index t (1 : Fin 2) = 0 :=
  (by decide +kernel : ∀ t : Fin grid2.N, _)
theorem idx_w0 : ∀ t : Fin cfg2.N, win2_0.index t (0 : Fin 2) = t.val ∧ win2_0.index t (1 : Fin 2) = 0 :=
  (by decide +kernel : ∀ t : Fin grid2.N, _)
theorem idx_w1 : ∀ t : Fin cfg2.N, win2_1.index t (0 : Fin 2) = t.val ∧ win2_1.index t (1 : Fin 2) = 0 :=
  (by decide +kernel : ∀ t : Fin grid2.N, _)
theorem idx_w2 : ∀ t : Fin cfg2.N, win2_2.index t (0 : Fin 2) = 0 ∧ win2_2.index t (1 : Fin 2) = 0 :=
  (by decide +kernel : ∀ t : Fin grid2.N, _)
theorem idx_w3 : ∀ t : Fin cfg2.N, win2_3.index t (0 : Fin 2) = 0 ∧ win2_3.index t (1 : Fin 2) = 0 :=
  (by decide +kernel : ∀ t : Fin grid2.N, _)
theorem idx_w4 : ∀ t : Fin cfg2.N, win2_4.index t (0 : Fin 2) = 0 ∧ win2_4.index t (1 : Fin 2) = 0 :=
  (by decide +kernel : ∀ t : Fin grid2.N, _)
theorem idx_w5 : ∀ t : Fin cfg2.N, win2_5.index t (0 : Fin 2) = 0 ∧ win2_5.index t (1 : Fin 2) = 0 :=
  (by decide +kernel : ∀ t : Fin grid2.N, _)
theorem idx_w6 : ∀ t : Fin cfg2.N, win2_6.index t (0 : Fin 2) = 0 ∧ win2_6.index t (1 : Fin 2) = 0 :=
  (by decide +kernel : ∀ t : Fin grid2.N, _)

variable (V : (c : Dev nD) → (b : Ref sig .tc) → Buf (Elt Ideal) ((c : Thread nD τ).loc b))

set_option maxHeartbeats 1000000 in
/-- WHAT POINT `t` WRITES BACK is block `t` of the normalised, rectified array of the arrays as the launch finds them. -/
theorem flushed_eq (c : Dev nD) (t : Fin cfg2.N) :
    (dat2 V c).flushed 7 t = ((cfg2.win 7).blk t).view.read (Elt Ideal)
      (normRelu (scaleShift (V c main_v24) (V c main_v36) (V c main_v37)) (V c main_v38) (V c main_v39) (V c main_v40) (V c main_v41)
        (Ideal.ofBits .f32 0x3727C5AC#32) (Ideal.ofBits .f32 0x00000000#32)) := by
  show (cfg2.win 7).cut (grid2.coords t) ((dat2 V c).after 7 t) = _
  rw [after2_7]
  unfold out2_7
  rw [View.canon_unit_zero hz]
  simp only [View.ld_unit_zero (S := S10000x128) hz, View.ld_unit_zero (S := S10000x1) hz, View.ld_unit_zero (S := S1x128) hz]
  obtain ⟨eo0, eo1⟩ := idx_w7 t
  obtain ⟨e00, e01⟩ := idx_w0 t
  obtain ⟨e10, e11⟩ := idx_w1 t
  obtain ⟨e20, e21⟩ := idx_w2 t
  obtain ⟨e30, e31⟩ := idx_w3 t
  obtain ⟨e40, e41⟩ := idx_w4 t
  obtain ⟨e50, e51⟩ := idx_w5 t
  obtain ⟨e60, e61⟩ := idx_w6 t
  funext j
  obtain ⟨p, q, rfl⟩ : ∃ (p : Fin 10000) (q : Fin 128), j = ix2 p q := ⟨j 0, j 1, eq_ix2 j⟩
  show k2_pay1 (iblk2 V c 0 t) (iblk2 V c 1 t) (iblk2 V c 2 t) (iblk2 V c 4 t) (iblk2 V c 3 t) (iblk2 V c 5 t) (iblk2 V c 6 t) (ix2 p q)
    = normRelu (scaleShift (V c main_v24) (V c main_v36) (V c main_v37)) (V c main_v38) (V c main_v39) (V c main_v40) (V c main_v41)
        (Ideal.ofBits .f32 0x3727C5AC#32) (Ideal.ofBits .f32 0x00000000#32) (((cfg2.win 7).blk t).view.emb (ix2 p q))
  refine (payload (iblk2 V c 0 t) (iblk2 V c 1 t) (iblk2 V c 2 t) (iblk2 V c 4 t) (iblk2 V c 3 t) (iblk2 V c 5 t) (iblk2 V c 6 t) p q).trans ?_
  have E0 : ((cfg2.win 0).blk t).view.emb (ix2 p q) = ((cfg2.win 7).blk t).view.emb (ix2 p q) := by
    funext a; apply Fin.ext
    match a with
    | ⟨0, _⟩ => show win2_0.index t (0 : Fin 2) * 10000 + 1 * p.val = win2_7.index t (0 : Fin 2) * 10000 + 1 * p.val; omega
    | ⟨1, _⟩ => show win2_0.index t (1 : Fin 2) * 128 + 1 * q.val = win2_7.index t (1 : Fin 2) * 128 + 1 * q.val; omega
  have E1 : ((cfg2.win 1).blk t).view.emb (ix2 p (0 : Fin 1)) = ix2 (rowOf (((cfg2.win 7).blk t).view.emb (ix2 p q))) (0 : Fin 1) := by
    funext a; apply Fin.ext
    match a with
    | ⟨0, _⟩ => show win2_1.index t (0 : Fin 2) * 10000 + 1 * p.val = win2_7.index t (0 : Fin 2) * 10000 + 1 * p.val; omega
    | ⟨1, _⟩ => show win2_1.index t (1 : Fin 2) * 1 + 1 * 0 = 0; omega
  have E2 : ((cfg2.win 2).blk t).view.emb (ix2 (0 : Fin 1) q) = ix2 (0 : Fin 1) (colOf (((cfg2.win 7).blk t).view.emb (ix2 p q))) := by
    funext a; apply Fin.ext
    match a with
    | ⟨0, _⟩ => show win2_2.index t (0 : Fin 2) * 1 + 1 * 0 = 0; omega
    | ⟨1, _⟩ => show win2_2.index t (1 : Fin 2) * 128 + 1 * q.val = win2_7.index t (1 : Fin 2) * 128 + 1 * q.val; omega
  have E3 : ((cfg2.win 3).blk t).view.emb (ix2 (0 : Fin 1) q) = ix2 (0 : Fin 1) (colOf (((cfg2.win 7).blk t).view.emb (ix2 p q))) := by
    funext a; apply Fin.ext
    match a with
    | ⟨0, _⟩ => show win2_3.index t (0 : Fin 2) * 1 + 1 * 0 = 0; omega
    | ⟨1, _⟩ => show win2_3.index t (1 : Fin 2) * 128 + 1 * q.val = win2_7.index t (1 : Fin 2) * 128 + 1 * q.val; omega
  have E4 : ((cfg2.win 4).blk t).view.emb (ix2 (0 : Fin 1) q) = ix2 (0 : Fin 1) (colOf (((cfg2.win 7).blk t).view.emb (ix2 p q))) := by
    funext a; apply Fin.ext
    match a with
    | ⟨0, _⟩ => show win2_4.index t (0 : Fin 2) * 1 + 1 * 0 = 0; omega
    | ⟨1, _⟩ => show win2_4.index t (1 : Fin 2) * 128 + 1 * q.val = win2_7.index t (1 : Fin 2) * 128 + 1 * q.val; omega
  have E5 : ((cfg2.win 5).blk t).view.emb (ix2 (0 : Fin 1) q) = ix2 (0 : Fin 1) (colOf (((cfg2.win 7).blk t).view.emb (ix2 p q))) := by
    funext a; apply Fin.ext
    match a with
    | ⟨0, _⟩ => show win2_5.index t (0 : Fin 2) * 1 + 1 * 0 = 0; omega
    | ⟨1, _⟩ => show win2_5.index t (1 : Fin 2) * 128 + 1 * q.val = win2_7.index t (1 : Fin 2) * 128 + 1 * q.val; omega
  have E6 : ((cfg2.win 6).blk t).view.emb (ix2 (0 : Fin 1) q) = ix2 (0 : Fin 1) (colOf (((cfg2.win 7).blk t).view.emb (ix2 p q))) := by
    funext a; apply Fin.ext
    match a with
    | ⟨0, _⟩ => show win2_6.index t (0 : Fin 2) * 1 + 1 * 0 = 0; omega
    | ⟨1, _⟩ => show win2_6.index t (1 : Fin 2) * 128 + 1 * q.val = win2_7.index t (1 : Fin 2) * 128 + 1 * q.val; omega
  let A : S100000x128.Idx → EReal := V c main_v24
  let s : S100000x1.Idx → EReal := V c main_v36
  let b : S1x128.Idx → EReal := V c main_v37
  let μ : S1x128.Idx → EReal := V c main_v38
  let v : S1x128.Idx → EReal := V c main_v39
  let g : S1x128.Idx → EReal := V c main_v40
  let β : S1x128.Idx → EReal := V c main_v41
  have r0 : iblk2 V c 0 t (ix2 p q) = A (((cfg2.win 7).blk t).view.emb (ix2 p q)) := congrArg A E0
  have r1 : iblk2 V c 1 t (ix2 p (0 : Fin 1)) = s (ix2 (rowOf (((cfg2.win 7).blk t).view.emb (ix2 p q))) (0 : Fin 1)) := congrArg s E1
  have r2 : iblk2 V c 2 t (ix2 (0 : Fin 1) q) = b (ix2 (0 : Fin 1) (colOf (((cfg2.win 7).blk t).view.emb (ix2 p q)))) := congrArg b E2
  have r3 : iblk2 V c 3 t (ix2 (0 : Fin 1) q) = μ (ix2 (0 : Fin 1) (colOf (((cfg2.win 7).blk t).view.emb (ix2 p q)))) := congrArg μ E3
  have r4 : iblk2 V c 4 t (ix2 (0 : Fin 1) q) = v (ix2 (0 : Fin 1) (colOf (((cfg2.win 7).blk t).view.emb (ix2 p q)))) := congrArg v E4
  have r5 : iblk2 V c 5 t (ix2 (0 : Fin 1) q) = g (ix2 (0 : Fin 1) (colOf (((cfg2.win 7).blk t).view.emb (ix2 p q)))) := congrArg g E5
  have r6 : iblk2 V c 6 t (ix2 (0 : Fin 1) q) = β (ix2 (0 : Fin 1) (colOf (((cfg2.win 7).blk t).view.emb (ix2 p q)))) := congrArg β E6
  rw [r0, r1, r2, r3, r4, r5, r6]
  rfl

/-- An index of the array is in point `t`'s block iff each coordinate is in the block's range on its axis. -/
theorem mem_blk (t : Fin cfg2.N) (i : S100000x128.Idx) :
    i ∈ ((cfg2.win 7).blk t).view.set ↔ ∀ a : Fin 2, win2_7.index t a * S10000x128.size a ≤ (i a).val ∧ (i a).val < win2_7.index t a * S10000x128.size a + S10000x128.size a := by
  show i ∈ ((View.whole main_v42).slice (win2_7.rect t)).set ↔ _
  rw [View.set_slice_whole, Rect.mem_set_unit]
  exact Iff.rfl

/-- Every row belongs to the block of the point `row / 10000`, and every point writes its block back. -/
theorem cover (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 10 := N_2
  refine ⟨⟨(i 0).val / 10000, by rw [hN]; omega⟩, flush2_7 _, ?_⟩
  rw [mem_blk]
  have eo := idx_w7 ⟨(i 0).val / 10000, by rw [hN]; omega⟩
  intro a
  match a with
  | ⟨0, _⟩ => show win2_7.index _ (0 : Fin 2) * 10000 ≤ (i 0).val ∧ (i 0).val < win2_7.index _ (0 : Fin 2) * 10000 + 10000; rw [eo.1]; dsimp only; omega
  | ⟨1, _⟩ => show win2_7.index _ (1 : Fin 2) * 128 ≤ (i 1).val ∧ (i 1).val < win2_7.index _ (1 : Fin 2) * 128 + 128; rw [eo.2]; omega

/-- THE RESULT ARRAY of the launch: the normalised, scaled, shifted and rectified features. -/
theorem value (c : Dev nD) : (dat2 V c).arrAt 7 cfg2.N = normRelu (scaleShift (V c main_v24) (V c main_v36) (V c main_v37)) (V c main_v38) (V c main_v39) (V c main_v40) (V c main_v41)
      (Ideal.ofBits .f32 0x3727C5AC#32) (Ideal.ofBits .f32 0x00000000#32) :=
  (dat2 V c).arrAt_eq_of_cover 7 _ (fun t _ => flushed_eq V c t) cover

end Cert.Bridge.Region2

end
-- ==== Proof.KRegion3.lean ====
/-
  The fourth launch: the normalised and rectified features, each row scaled by its source normalisation, times the second weight matrix.

  The launch walks ten blocks of 10000 rows.  At a block it forms `(X · s)` — each row of the block of `X` times
  that row's entry of the column `s` —, and multiplies by the whole weight matrix into a zero accumulator; a
  change of float format on the way in is the identity over the extended reals.  So entry `(p, q)` of the
  block is `∑ₖ (X(p,k) · s(p)) · W(k,q)`, the blocks are restrictions of ONE function of the whole arrays
  (`scaledProduct`), every block is written back, and the blocks cover the result array.
-/
import proofs.«164736_j21964462752266_1_alg».proof.Proof.Gen.KernelIdeal.Frame
import proofs.«164736_j21964462752266_1_alg».proof.Proof.Stages
import proofs.«164736_j21964462752266_1_alg».proof.Proof.LibRepeat
import proofs.«164736_j21964462752266_1_alg».proof.Proof.LibPlainProduct
import Idealize.ShloMosaic.Lib.Pipeline.Value
import Idealize.ShloMosaic.Lib.ValueIdx
import Idealize.ShloMosaic.PureOps.Ideal.Laws

noncomputable section

namespace Cert.Bridge.Region3

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open scoped BigOperators

theorem hz : (![0, 0] : Fin 2 → Nat) = fun _ => 0 := funext fun a => by fin_cases a <;> rfl

/-- The body's value at `(p, q)` of a block: the scaled rows times the weights, as a sum over the contracted coordinate. -/
theorem payload (x0 : Vec Ideal S10000x128 .f32) (x1 : Vec Ideal S10000x1 .f32) (x2 : Vec Ideal S128x64 .f32)
    (p : Fin 10000) (q : Fin 64) :
    k3_pay1 x0 x1 x2 (ix2 p q) = ∑ k : Fin 128, (x0 (ix2 p k) * x1 (ix2 p (0 : Fin 1))) * x2 (ix2 k q) := by
  unfold k3_pay1
  simp only [shapeCast_self]
  rw [Cert.PlainProduct.matmul_plain_apply dot_S10000x128_S128x64_S10000x64_1_0_0_1_n_n rfl]
  refine Finset.sum_congr rfl fun k _ => ?_
  show (x0 (ix2 p k) * broadcastTo S10000x128 x1 broadcasts_S10000x1_S10000x128 (ix2 p k)) * x2 (ix2 k q) = _
  rw [Cert.Lib.Repeat.colRepeat_apply]

/-- The printed index maps, decided once over the grid: the row-blocked windows sit at block `(t, 0)`, the whole-array windows at `(0, 0)`. -/
theorem idx_facts : ∀ t : Fin cfg3.N,
    (win3_3.index t (0 : Fin 2) = t.val ∧ win3_3.index t (1 : Fin 2) = 0)
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

variable (V : (c : Dev nD) → (b : Ref sig .tc) → Buf (Elt Ideal) ((c : Thread nD τ).loc b))

/-- WHAT POINT `t` WRITES BACK is block `t` of the scaled product of the arrays as the launch finds them. -/
theorem flushed_eq (c : Dev nD) (t : Fin cfg3.N) :
    (dat3 V c).flushed 3 t = ((cfg3.win 3).blk t).view.read (Elt Ideal)
      (scaledProduct (V c main_v42) (V c main_v43) (V c main_arg7)) := by
  show (cfg3.win 3).cut (grid3.coords t) ((dat3 V c).after 3 t) = _
  rw [after3_3]
  unfold out3_3
  rw [View.canon_unit_zero hz]
  simp only [View.ld_unit_zero (S := S10000x128) hz, View.ld_unit_zero (S := S10000x1) hz, View.ld_unit_zero (S := S128x64) hz]
  obtain ⟨⟨eo0, eo1⟩, e00, e01, e10, e11, e20, e21⟩ := idx_facts t
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (ix2 p q)
    = scaledProduct (V c main_v42) (V c main_v43) (V c main_arg7) (((cfg3.win 3).blk t).view.emb (ix2 p q))
  rw [payload]
  unfold scaledProduct
  refine Finset.sum_congr rfl fun k _ => ?_
  have E0 : ((cfg3.win 0).blk t).view.emb (ix2 p k) = ix2 (rowOf (((cfg3.win 3).blk t).view.emb (ix2 p q))) k := by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 128 + 1 * k.val = k.val; omega
  have E1 : ((cfg3.win 1).blk t).view.emb (ix2 p (0 : Fin 1)) = ix2 (rowOf (((cfg3.win 3).blk t).view.emb (ix2 p q))) (0 : Fin 1) := by
    funext a; apply Fin.ext
    match a with
    | ⟨0, _⟩ => show win3_1.index t (0 : Fin 2) * 10000 + 1 * p.val = win3_3.index t (0 : Fin 2) * 10000 + 1 * p.val; omega
    | ⟨1, _⟩ => show win3_1.index t (1 : Fin 2) * 1 + 1 * 0 = 0; omega
  have E2 : ((cfg3.win 2).blk t).view.emb (ix2 k q) = ix2 k (colOf (((cfg3.win 3).blk t).view.emb (ix2 p q))) := by
    funext a; apply Fin.ext
    match a with
    | ⟨0, _⟩ => show win3_2.index t (0 : Fin 2) * 128 + 1 * k.val = k.val; omega
    | ⟨1, _⟩ => show win3_2.index t (1 : Fin 2) * 64 + 1 * q.val = win3_3.index t (1 : Fin 2) * 64 + 1 * q.val; omega
  let A : S100000x128.Idx → EReal := V c main_v42
  let s : S100000x1.Idx → EReal := V c main_v43
  let B : S128x64.Idx → EReal := V c main_arg7
  show (A (((cfg3.win 0).blk t).view.emb (ix2 p k)) * s (((cfg3.win 1).blk t).view.emb (ix2 p (0 : Fin 1))))
      * B (((cfg3.win 2).blk t).view.emb (ix2 k q))
    = (A (ix2 (rowOf (((cfg3.win 3).blk t).view.emb (ix2 p q))) k) * s (ix2 (rowOf (((cfg3.win 3).blk t).view.emb (ix2 p q))) (0 : Fin 1))) * B (ix2 k (colOf (((cfg3.win 3).blk t).view.emb (ix2 p q))))
  rw [E0, E1, E2]

/-- An index of the array is in point `t`'s block iff each coordinate is in the block's range on its axis. -/
theorem mem_blk (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v44).slice (win3_3.rect t)).set ↔ _
  rw [View.set_slice_whole, Rect.mem_set_unit]
  exact Iff.rfl

/-- Every row belongs to the block of the point `row / 10000`, and every point writes its block back. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_3 _, ?_⟩
  rw [mem_blk]
  have eo := (idx_facts ⟨(i 0).val / 10000, by rw [hN]; omega⟩).1
  intro a
  match a with
  | ⟨0, _⟩ => show win3_3.index _ (0 : Fin 2) * 10000 ≤ (i 0).val ∧ (i 0).val < win3_3.index _ (0 : Fin 2) * 10000 + 10000; rw [eo.1]; dsimp only; omega
  | ⟨1, _⟩ => show win3_3.index _ (1 : Fin 2) * 64 ≤ (i 1).val ∧ (i 1).val < win3_3.index _ (1 : Fin 2) * 64 + 64; rw [eo.2]; omega

/-- THE RESULT ARRAY of the launch: the rows scaled by the column, times the weights. -/
theorem value (c : Dev nD) : (dat3 V c).arrAt 3 cfg3.N = scaledProduct (V c main_v42) (V c main_v43) (V c main_arg7) :=
  (dat3 V c).arrAt_eq_of_cover 3 _ (fun t _ => flushed_eq V c t) cover

end Cert.Bridge.Region3

end
-- ==== Proof.KRegion4.lean ====
/-
  The fifth launch: the second aggregation scaled row by row by the destination normalisation, plus the bias.

  The launch walks ten blocks of 10000 rows; at a block it computes `agg · norm + bias` entry by entry (the column
  `norm` repeated across the 64 lanes, the row `bias` repeated down the rows).  The blocks are restrictions of ONE
  function of the whole arrays (`scaleShift`), every block is written back, and the blocks cover the result array.
-/
import proofs.«164736_j21964462752266_1_alg».proof.Proof.Gen.KernelIdeal.Frame
import proofs.«164736_j21964462752266_1_alg».proof.Proof.Stages
import proofs.«164736_j21964462752266_1_alg».proof.Proof.LibRepeat
import Idealize.ShloMosaic.Lib.Pipeline.Value
import Idealize.ShloMosaic.Lib.ValueIdx
import Idealize.ShloMosaic.PureOps.Ideal.Laws

noncomputable section

namespace Cert.Bridge.Region4

open Idealize.ShloMosaic Idealize.ShloMosaic.TcCoe Idealize.SL.Sem Idealize.ShloMosaic.ValueIdx
open Idealize.ShloMosaic.Pipeline (Dat)
open Cert.KernelIdeal Cert.KernelIdeal.Gen Cert.Bridge
open scoped BigOperators

theorem hz : (![0, 0] : Fin 2 → Nat) = fun _ => 0 := funext fun a => by fin_cases a <;> rfl

/-- The body's value at `(p, q)` of a block. -/
theorem payload (x0 : Vec Ideal S10000x64 .f32) (x1 : Vec Ideal S10000x1 .f32) (x2 : Vec Ideal S1x64 .f32)
    (p : Fin 10000) (q : Fin 64) :
    k4_pay1 x0 x1 x2 (ix2 p q) = x0 (ix2 p q) * x1 (ix2 p (0 : Fin 1)) + x2 (ix2 (0 : Fin 1) q) := by
  unfold k4_pay1
  simp only [shapeCast_self]
  show x0 (ix2 p q) * broadcastTo S10000x64 x1 broadcasts_S10000x1_S10000x64 (ix2 p q)
      + broadcastTo S10000x64 x2 broadcasts_S1x64_S10000x64 (ix2 p q) = _
  rw [Cert.Lib.Repeat.colRepeat_apply, Cert.Lib.Repeat.rowRepeat_apply]

/-- The printed index maps, decided once over the grid: the row-blocked windows sit at block `(t, 0)`, the whole-array windows at `(0, 0)`. -/
theorem idx_facts : ∀ t : Fin cfg4.N,
    (win4_3.index t (0 : Fin 2) = t.val ∧ win4_3.index t (1 : Fin 2) = 0)
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

variable (V : (c : Dev nD) → (b : Ref sig .tc) → Buf (Elt Ideal) ((c : Thread nD τ).loc b))

/-- WHAT POINT `t` WRITES BACK is block `t` of `agg · norm + bias` of the arrays as the launch finds them. -/
theorem flushed_eq (c : Dev nD) (t : Fin cfg4.N) :
    (dat4 V c).flushed 3 t = ((cfg4.win 3).blk t).view.read (Elt Ideal)
      (scaleShift (V c main_v54) (V c main_v55) (V c main_v56)) := by
  show (cfg4.win 3).cut (grid4.coords t) ((dat4 V c).after 3 t) = _
  rw [after4_3]
  unfold out4_3
  rw [View.canon_unit_zero hz]
  simp only [View.ld_unit_zero (S := S10000x64) hz, View.ld_unit_zero (S := S10000x1) hz, View.ld_unit_zero (S := S1x64) hz]
  obtain ⟨⟨eo0, eo1⟩, e00, e01, e10, e11, e20, e21⟩ := idx_facts t
  funext j
  obtain ⟨p, q, rfl⟩ : ∃ (p : Fin 10000) (q : Fin 64), j = ix2 p q := ⟨j 0, j 1, eq_ix2 j⟩
  show k4_pay1 (iblk4 V c 0 t) (iblk4 V c 1 t) (iblk4 V c 2 t) (ix2 p q)
    = scaleShift (V c main_v54) (V c main_v55) (V c main_v56) (((cfg4.win 3).blk t).view.emb (ix2 p q))
  rw [payload]
  have E0 : ((cfg4.win 0).blk t).view.emb (ix2 p q) = ((cfg4.win 3).blk t).view.emb (ix2 p q) := by
    funext a; apply Fin.ext
    match a with
    | ⟨0, _⟩ => show win4_0.index t (0 : Fin 2) * 10000 + 1 * p.val = win4_3.index t (0 : Fin 2) * 10000 + 1 * p.val; omega
    | ⟨1, _⟩ => show win4_0.index t (1 : Fin 2) * 64 + 1 * q.val = win4_3.index t (1 : Fin 2) * 64 + 1 * q.val; omega
  have E1 : ((cfg4.win 1).blk t).view.emb (ix2 p (0 : Fin 1)) = ix2 (rowOf (((cfg4.win 3).blk t).view.emb (ix2 p q))) (0 : Fin 1) := by
    funext a; apply Fin.ext
    match a with
    | ⟨0, _⟩ => show win4_1.index t (0 : Fin 2) * 10000 + 1 * p.val = win4_3.index t (0 : Fin 2) * 10000 + 1 * p.val; omega
    | ⟨1, _⟩ => show win4_1.index t (1 : Fin 2) * 1 + 1 * 0 = 0; omega
  have E2 : ((cfg4.win 2).blk t).view.emb (ix2 (0 : Fin 1) q) = ix2 (0 : Fin 1) (colOf (((cfg4.win 3).blk t).view.emb (ix2 p q))) := by
    funext a; apply Fin.ext
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega
  let A : S100000x64.Idx → EReal := V c main_v54
  let s : S100000x1.Idx → EReal := V c main_v55
  let b : S1x64.Idx → EReal := V c main_v56
  show A (((cfg4.win 0).blk t).view.emb (ix2 p q)) * s (((cfg4.win 1).blk t).view.emb (ix2 p (0 : Fin 1)))
      + b (((cfg4.win 2).blk t).view.emb (ix2 (0 : Fin 1) q))
    = A (((cfg4.win 3).blk t).view.emb (ix2 p q)) * s (ix2 (rowOf (((cfg4.win 3).blk t).view.emb (ix2 p q))) (0 : Fin 1)) + b (ix2 (0 : Fin 1) (colOf (((cfg4.win 3).blk t).view.emb (ix2 p q))))
  rw [E0, E1, E2]

/-- An index of the array is in point `t`'s block iff each coordinate is in the block's range on its axis. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v57).slice (win4_3.rect t)).set ↔ _
  rw [View.set_slice_whole, Rect.mem_set_unit]
  exact Iff.rfl

/-- Every row belongs to the block of the point `row / 10000`, and every point writes its block back. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 10 := N_4
  refine ⟨⟨(i 0).val / 10000, by rw [hN]; omega⟩, flush4_3 _, ?_⟩
  rw [mem_blk]
  have eo := (idx_facts ⟨(i 0).val / 10000, by rw [hN]; omega⟩).1
  intro a
  match a with
  | ⟨0, _⟩ => show win4_3.index _ (0 : Fin 2) * 10000 ≤ (i 0).val ∧ (i 0).val < win4_3.index _ (0 : Fin 2) * 10000 + 10000; rw [eo.1]; dsimp only; omega
  | ⟨1, _⟩ => show win4_3.index _ (1 : Fin 2) * 64 ≤ (i 1).val ∧ (i 1).val < win4_3.index _ (1 : Fin 2) * 64 + 64; rw [eo.2]; omega

/-- THE RESULT ARRAY of the launch: `agg · norm + bias`, entry by entry. -/
theorem value (c : Dev nD) : (dat4 V c).arrAt 3 cfg4.N = scaleShift (V c main_v54) (V c main_v55) (V c main_v56) :=
  (dat4 V c).arrAt_eq_of_cover 3 _ (fun t _ => flushed_eq V c t) cover

end Cert.Bridge.Region4

end
-- ==== Proof.KValue.lean ====
/-
  The kernel program's result array, by walking its ten segments.

  The program alternates five lines of host operations with five kernel launches.  The buffer contents at each of
  the ten boundaries are a fold from the launch memory.  Read at the buffers that matter, the fold gives: the
  arguments and the two degree normalisations unchanged wherever no segment writes them; each launch's result array
  at the stage function of the arrays it found (the five launch modules); each host line's results at the named
  host functions of what it found.  Composing them, the result array ends at `tailOut … (normalisedK … (conv1 …))` of the
  argument arrays as launched.
-/
import proofs.«164736_j21964462752266_1_alg».proof.Proof.KFrame
import proofs.«164736_j21964462752266_1_alg».proof.Proof.KHost
import proofs.«164736_j21964462752266_1_alg».proof.Proof.KSpec
import proofs.«164736_j21964462752266_1_alg».proof.Proof.KRegion0
import proofs.«164736_j21964462752266_1_alg».proof.Proof.KRegion1
import proofs.«164736_j21964462752266_1_alg».proof.Proof.KRegion2
import proofs.«164736_j21964462752266_1_alg».proof.Proof.KRegion3
import proofs.«164736_j21964462752266_1_alg».proof.Proof.KRegion4

noncomputable section

namespace Cert.Bridge.KValue

open Idealize.ShloMosaic Idealize.ShloMosaic.TcCoe Idealize.SL.Sem Idealize.ShloMosaic.StableHlo
open Cert.KernelIdeal Cert.KernelIdeal.Gen Cert.Bridge

variable (m : (ℓ : Loc nD τ sig) → Buf (Elt Ideal) ℓ) (ρ : Dev nD → PrngReg) (c : Dev nD)

/-! ### Buffers no segment writes keep their contents (one step per segment) -/

theorem at1_a0 : W1 m ρ c (Proc.devRef .tc main_arg0) = (m ((c : Thread nD τ).loc main_arg0)) := by
  show StableHlo.after hostOps0 (W0 m ρ c) (Proc.devRef .tc main_arg0) = W0 m ρ c (Proc.devRef .tc main_arg0)
  untouched_by hostOps0
theorem at1_a1 : W1 m ρ c (Proc.devRef .tc main_arg1) = (m ((c : Thread nD τ).loc main_arg1)) := by
  show StableHlo.after hostOps0 (W0 m ρ c) (Proc.devRef .tc main_arg1) = W0 m ρ c (Proc.devRef .tc main_arg1)
  untouched_by hostOps0
theorem at1_a2 : W1 m ρ c (Proc.devRef .tc main_arg2) = (m ((c : Thread nD τ).loc main_arg2)) := by
  show StableHlo.after hostOps0 (W0 m ρ c) (Proc.devRef .tc main_arg2) = W0 m ρ c (Proc.devRef .tc main_arg2)
  untouched_by hostOps0
theorem at1_a3 : W1 m ρ c (Proc.devRef .tc main_arg3) = (m ((c : Thread nD τ).loc main_arg3)) := by
  show StableHlo.after hostOps0 (W0 m ρ c) (Proc.devRef .tc main_arg3) = W0 m ρ c (Proc.devRef .tc main_arg3)
  untouched_by hostOps0
theorem at1_a4 : W1 m ρ c (Proc.devRef .tc main_arg4) = (m ((c : Thread nD τ).loc main_arg4)) := by
  show StableHlo.after hostOps0 (W0 m ρ c) (Proc.devRef .tc main_arg4) = W0 m ρ c (Proc.devRef .tc main_arg4)
  untouched_by hostOps0
theorem at1_a5 : W1 m ρ c (Proc.devRef .tc main_arg5) = (m ((c : Thread nD τ).loc main_arg5)) := by
  show StableHlo.after hostOps0 (W0 m ρ c) (Proc.devRef .tc main_arg5) = W0 m ρ c (Proc.devRef .tc main_arg5)
  untouched_by hostOps0
theorem at1_a6 : W1 m ρ c (Proc.devRef .tc main_arg6) = (m ((c : Thread nD τ).loc main_arg6)) := by
  show StableHlo.after hostOps0 (W0 m ρ c) (Proc.devRef .tc main_arg6) = W0 m ρ c (Proc.devRef .tc main_arg6)
  untouched_by hostOps0
theorem at1_a7 : W1 m ρ c (Proc.devRef .tc main_arg7) = (m ((c : Thread nD τ).loc main_arg7)) := by
  show StableHlo.after hostOps0 (W0 m ρ c) (Proc.devRef .tc main_arg7) = W0 m ρ c (Proc.devRef .tc main_arg7)
  untouched_by hostOps0
theorem at1_a8 : W1 m ρ c (Proc.devRef .tc main_arg8) = (m ((c : Thread nD τ).loc main_arg8)) := by
  show StableHlo.after hostOps0 (W0 m ρ c) (Proc.devRef .tc main_arg8) = W0 m ρ c (Proc.devRef .tc main_arg8)
  untouched_by hostOps0
theorem at1_v9 : W1 m ρ c (Proc.devRef .tc main_v9) = degNorm (F := Ideal) (m ((c : Thread nD τ).loc main_arg1)) := line0_v9 (W0 m ρ c)
theorem at1_v12 : W1 m ρ c (Proc.devRef .tc main_v12) = degNorm (F := Ideal) (m ((c : Thread nD τ).loc main_arg2)) := line0_v12 (W0 m ρ c)
theorem at1_v13 : W1 m ρ c (Proc.devRef .tc main_v13) = normCol (m ((c : Thread nD τ).loc main_arg1)) := line0_v13 (W0 m ρ c)
theorem at2_a1 : W2 m ρ c (Proc.devRef .tc main_arg1) = (m ((c : Thread nD τ).loc main_arg1)) := (W2_of_ne m ρ c main_arg1 (by decide)).trans (at1_a1 m ρ c)
theorem at3_a1 : W3 m ρ c (Proc.devRef .tc main_arg1) = (m ((c : Thread nD τ).loc main_arg1)) :=
  (show W3 m ρ c (Proc.devRef .tc main_arg1) = W2 m ρ c (Proc.devRef .tc main_arg1) from by untouched_by hostOps1).trans (at2_a1 m ρ c)
theorem at4_a1 : W4 m ρ c (Proc.devRef .tc main_arg1) = (m ((c : Thread nD τ).loc main_arg1)) := (W4_of_ne m ρ c main_arg1 (by decide)).trans (at3_a1 m ρ c)
theorem at5_a1 : W5 m ρ c (Proc.devRef .tc main_arg1) = (m ((c : Thread nD τ).loc main_arg1)) :=
  (show W5 m ρ c (Proc.devRef .tc main_arg1) = W4 m ρ c (Proc.devRef .tc main_arg1) from by untouched_by hostOps2).trans (at4_a1 m ρ c)
theorem at6_a1 : W6 m ρ c (Proc.devRef .tc main_arg1) = (m ((c : Thread nD τ).loc main_arg1)) := (W6_of_ne m ρ c main_arg1 (by decide)).trans (at5_a1 m ρ c)
theorem at7_a1 : W7 m ρ c (Proc.devRef .tc main_arg1) = (m ((c : Thread nD τ).loc main_arg1)) :=
  (show W7 m ρ c (Proc.devRef .tc main_arg1) = W6 m ρ c (Proc.devRef .tc main_arg1) from by untouched_by hostOps3).trans (at6_a1 m ρ c)
theorem at8_a1 : W8 m ρ c (Proc.devRef .tc main_arg1) = (m ((c : Thread nD τ).loc main_arg1)) := (W8_of_ne m ρ c main_arg1 (by decide)).trans (at7_a1 m ρ c)
theorem at2_a2 : W2 m ρ c (Proc.devRef .tc main_arg2) = (m ((c : Thread nD τ).loc main_arg2)) := (W2_of_ne m ρ c main_arg2 (by decide)).trans (at1_a2 m ρ c)
theorem at3_a2 : W3 m ρ c (Proc.devRef .tc main_arg2) = (m ((c : Thread nD τ).loc main_arg2)) :=
  (show W3 m ρ c (Proc.devRef .tc main_arg2) = W2 m ρ c (Proc.devRef .tc main_arg2) from by untouched_by hostOps1).trans (at2_a2 m ρ c)
theorem at4_a2 : W4 m ρ c (Proc.devRef .tc main_arg2) = (m ((c : Thread nD τ).loc main_arg2)) := (W4_of_ne m ρ c main_arg2 (by decide)).trans (at3_a2 m ρ c)
theorem at5_a2 : W5 m ρ c (Proc.devRef .tc main_arg2) = (m ((c : Thread nD τ).loc main_arg2)) :=
  (show W5 m ρ c (Proc.devRef .tc main_arg2) = W4 m ρ c (Proc.devRef .tc main_arg2) from by untouched_by hostOps2).trans (at4_a2 m ρ c)
theorem at6_a2 : W6 m ρ c (Proc.devRef .tc main_arg2) = (m ((c : Thread nD τ).loc main_arg2)) := (W6_of_ne m ρ c main_arg2 (by decide)).trans (at5_a2 m ρ c)
theorem at7_a2 : W7 m ρ c (Proc.devRef .tc main_arg2) = (m ((c : Thread nD τ).loc main_arg2)) :=
  (show W7 m ρ c (Proc.devRef .tc main_arg2) = W6 m ρ c (Proc.devRef .tc main_arg2) from by untouched_by hostOps3).trans (at6_a2 m ρ c)
theorem at8_a2 : W8 m ρ c (Proc.devRef .tc main_arg2) = (m ((c : Thread nD τ).loc main_arg2)) := (W8_of_ne m ρ c main_arg2 (by decide)).trans (at7_a2 m ρ c)
theorem at2_v12 : W2 m ρ c (Proc.devRef .tc main_v12) = (degNorm (F := Ideal) (m ((c : Thread nD τ).loc main_arg2))) := (W2_of_ne m ρ c main_v12 (by decide)).trans (at1_v12 m ρ c)
theorem at3_v12 : W3 m ρ c (Proc.devRef .tc main_v12) = (degNorm (F := Ideal) (m ((c : Thread nD τ).loc main_arg2))) :=
  (show W3 m ρ c (Proc.devRef .tc main_v12) = W2 m ρ c (Proc.devRef .tc main_v12) from by untouched_by hostOps1).trans (at2_v12 m ρ c)
theorem at4_v12 : W4 m ρ c (Proc.devRef .tc main_v12) = (degNorm (F := Ideal) (m ((c : Thread nD τ).loc main_arg2))) := (W4_of_ne m ρ c main_v12 (by decide)).trans (at3_v12 m ρ c)
theorem at5_v12 : W5 m ρ c (Proc.devRef .tc main_v12) = (degNorm (F := Ideal) (m ((c : Thread nD τ).loc main_arg2))) :=
  (show W5 m ρ c (Proc.devRef .tc main_v12) = W4 m ρ c (Proc.devRef .tc main_v12) from by untouched_by hostOps2).trans (at4_v12 m ρ c)
theorem at6_v12 : W6 m ρ c (Proc.devRef .tc main_v12) = (degNorm (F := Ideal) (m ((c : Thread nD τ).loc main_arg2))) := (W6_of_ne m ρ c main_v12 (by decide)).trans (at5_v12 m ρ c)
theorem at7_v12 : W7 m ρ c (Proc.devRef .tc main_v12) = (degNorm (F := Ideal) (m ((c : Thread nD τ).loc main_arg2))) :=
  (show W7 m ρ c (Proc.devRef .tc main_v12) = W6 m ρ c (Proc.devRef .tc main_v12) from by untouched_by hostOps3).trans (at6_v12 m ρ c)
theorem at8_v12 : W8 m ρ c (Proc.devRef .tc main_v12) = (degNorm (F := Ideal) (m ((c : Thread nD τ).loc main_arg2))) := (W8_of_ne m ρ c main_v12 (by decide)).trans (at7_v12 m ρ c)
theorem at2_v9 : W2 m ρ c (Proc.devRef .tc main_v9) = (degNorm (F := Ideal) (m ((c : Thread nD τ).loc main_arg1))) := (W2_of_ne m ρ c main_v9 (by decide)).trans (at1_v9 m ρ c)
theorem at3_v9 : W3 m ρ c (Proc.devRef .tc main_v9) = (degNorm (F := Ideal) (m ((c : Thread nD τ).loc main_arg1))) :=
  (show W3 m ρ c (Proc.devRef .tc main_v9) = W2 m ρ c (Proc.devRef .tc main_v9) from by untouched_by hostOps1).trans (at2_v9 m ρ c)
theorem at4_v9 : W4 m ρ c (Proc.devRef .tc main_v9) = (degNorm (F := Ideal) (m ((c : Thread nD τ).loc main_arg1))) := (W4_of_ne m ρ c main_v9 (by decide)).trans (at3_v9 m ρ c)
theorem at5_v9 : W5 m ρ c (Proc.devRef .tc main_v9) = (degNorm (F := Ideal) (m ((c : Thread nD τ).loc main_arg1))) :=
  (show W5 m ρ c (Proc.devRef .tc main_v9) = W4 m ρ c (Proc.devRef .tc main_v9) from by untouched_by hostOps2).trans (at4_v9 m ρ c)
theorem at6_v9 : W6 m ρ c (Proc.devRef .tc main_v9) = (degNorm (F := Ideal) (m ((c : Thread nD τ).loc main_arg1))) := (W6_of_ne m ρ c main_v9 (by decide)).trans (at5_v9 m ρ c)
theorem at2_a4 : W2 m ρ c (Proc.devRef .tc main_arg4) = (m ((c : Thread nD τ).loc main_arg4)) := (W2_of_ne m ρ c main_arg4 (by decide)).trans (at1_a4 m ρ c)
theorem at3_a4 : W3 m ρ c (Proc.devRef .tc main_arg4) = (m ((c : Thread nD τ).loc main_arg4)) :=
  (show W3 m ρ c (Proc.devRef .tc main_arg4) = W2 m ρ c (Proc.devRef .tc main_arg4) from by untouched_by hostOps1).trans (at2_a4 m ρ c)
theorem at4_a4 : W4 m ρ c (Proc.devRef .tc main_arg4) = (m ((c : Thread nD τ).loc main_arg4)) := (W4_of_ne m ρ c main_arg4 (by decide)).trans (at3_a4 m ρ c)
theorem at2_a5 : W2 m ρ c (Proc.devRef .tc main_arg5) = (m ((c : Thread nD τ).loc main_arg5)) := (W2_of_ne m ρ c main_arg5 (by decide)).trans (at1_a5 m ρ c)
theorem at3_a5 : W3 m ρ c (Proc.devRef .tc main_arg5) = (m ((c : Thread nD τ).loc main_arg5)) :=
  (show W3 m ρ c (Proc.devRef .tc main_arg5) = W2 m ρ c (Proc.devRef .tc main_arg5) from by untouched_by hostOps1).trans (at2_a5 m ρ c)
theorem at4_a5 : W4 m ρ c (Proc.devRef .tc main_arg5) = (m ((c : Thread nD τ).loc main_arg5)) := (W4_of_ne m ρ c main_arg5 (by decide)).trans (at3_a5 m ρ c)
theorem at2_a6 : W2 m ρ c (Proc.devRef .tc main_arg6) = (m ((c : Thread nD τ).loc main_arg6)) := (W2_of_ne m ρ c main_arg6 (by decide)).trans (at1_a6 m ρ c)
theorem at3_a6 : W3 m ρ c (Proc.devRef .tc main_arg6) = (m ((c : Thread nD τ).loc main_arg6)) :=
  (show W3 m ρ c (Proc.devRef .tc main_arg6) = W2 m ρ c (Proc.devRef .tc main_arg6) from by untouched_by hostOps1).trans (at2_a6 m ρ c)
theorem at4_a6 : W4 m ρ c (Proc.devRef .tc main_arg6) = (m ((c : Thread nD τ).loc main_arg6)) := (W4_of_ne m ρ c main_arg6 (by decide)).trans (at3_a6 m ρ c)
theorem at2_a7 : W2 m ρ c (Proc.devRef .tc main_arg7) = (m ((c : Thread nD τ).loc main_arg7)) := (W2_of_ne m ρ c main_arg7 (by decide)).trans (at1_a7 m ρ c)
theorem at3_a7 : W3 m ρ c (Proc.devRef .tc main_arg7) = (m ((c : Thread nD τ).loc main_arg7)) :=
  (show W3 m ρ c (Proc.devRef .tc main_arg7) = W2 m ρ c (Proc.devRef .tc main_arg7) from by untouched_by hostOps1).trans (at2_a7 m ρ c)
theorem at4_a7 : W4 m ρ c (Proc.devRef .tc main_arg7) = (m ((c : Thread nD τ).loc main_arg7)) := (W4_of_ne m ρ c main_arg7 (by decide)).trans (at3_a7 m ρ c)
theorem at5_a7 : W5 m ρ c (Proc.devRef .tc main_arg7) = (m ((c : Thread nD τ).loc main_arg7)) :=
  (show W5 m ρ c (Proc.devRef .tc main_arg7) = W4 m ρ c (Proc.devRef .tc main_arg7) from by untouched_by hostOps2).trans (at4_a7 m ρ c)
theorem at6_a7 : W6 m ρ c (Proc.devRef .tc main_arg7) = (m ((c : Thread nD τ).loc main_arg7)) := (W6_of_ne m ρ c main_arg7 (by decide)).trans (at5_a7 m ρ c)
theorem at7_a7 : W7 m ρ c (Proc.devRef .tc main_arg7) = (m ((c : Thread nD τ).loc main_arg7)) :=
  (show W7 m ρ c (Proc.devRef .tc main_arg7) = W6 m ρ c (Proc.devRef .tc main_arg7) from by untouched_by hostOps3).trans (at6_a7 m ρ c)
theorem at2_a8 : W2 m ρ c (Proc.devRef .tc main_arg8) = (m ((c : Thread nD τ).loc main_arg8)) := (W2_of_ne m ρ c main_arg8 (by decide)).trans (at1_a8 m ρ c)
theorem at3_a8 : W3 m ρ c (Proc.devRef .tc main_arg8) = (m ((c : Thread nD τ).loc main_arg8)) :=
  (show W3 m ρ c (Proc.devRef .tc main_arg8) = W2 m ρ c (Proc.devRef .tc main_arg8) from by untouched_by hostOps1).trans (at2_a8 m ρ c)
theorem at4_a8 : W4 m ρ c (Proc.devRef .tc main_arg8) = (m ((c : Thread nD τ).loc main_arg8)) := (W4_of_ne m ρ c main_arg8 (by decide)).trans (at3_a8 m ρ c)
theorem at5_a8 : W5 m ρ c (Proc.devRef .tc main_arg8) = (m ((c : Thread nD τ).loc main_arg8)) :=
  (show W5 m ρ c (Proc.devRef .tc main_arg8) = W4 m ρ c (Proc.devRef .tc main_arg8) from by untouched_by hostOps2).trans (at4_a8 m ρ c)
theorem at6_a8 : W6 m ρ c (Proc.devRef .tc main_arg8) = (m ((c : Thread nD τ).loc main_arg8)) := (W6_of_ne m ρ c main_arg8 (by decide)).trans (at5_a8 m ρ c)
theorem at7_a8 : W7 m ρ c (Proc.devRef .tc main_arg8) = (m ((c : Thread nD τ).loc main_arg8)) :=
  (show W7 m ρ c (Proc.devRef .tc main_arg8) = W6 m ρ c (Proc.devRef .tc main_arg8) from by untouched_by hostOps3).trans (at6_a8 m ρ c)
theorem at8_a8 : W8 m ρ c (Proc.devRef .tc main_arg8) = (m ((c : Thread nD τ).loc main_arg8)) := (W8_of_ne m ρ c main_arg8 (by decide)).trans (at7_a8 m ρ c)

/-! ### What each launch and each host line produces -/

theorem at2_v14 : W2 m ρ c (Proc.devRef .tc main_v14) = (scaledProduct (m ((c : Thread nD τ).loc main_arg0)) (normCol (m ((c : Thread nD τ).loc main_arg1))) (m ((c : Thread nD τ).loc main_arg3))) :=
  (W2_arr m ρ c 3).trans ((Region0.value (V1 m ρ) c).trans (by
    show scaledProduct (W1 m ρ c (Proc.devRef .tc main_arg0)) (W1 m ρ c (Proc.devRef .tc main_v13)) (W1 m ρ c (Proc.devRef .tc main_arg3)) = _
    rw [at1_a0 m ρ c, at1_v13 m ρ c, at1_a3 m ρ c]))

theorem at3_v24 : W3 m ρ c (Proc.devRef .tc main_v24) = (aggregate128 (F := Ideal) (m ((c : Thread nD τ).loc main_arg1)) (m ((c : Thread nD τ).loc main_arg2)) (scaledProduct (m ((c : Thread nD τ).loc main_arg0)) (normCol (m ((c : Thread nD τ).loc main_arg1))) (m ((c : Thread nD τ).loc main_arg3)))) :=
  (line1_v24 (W2 m ρ c)).trans (by rw [at2_a1 m ρ c, at2_a2 m ρ c, at2_v14 m ρ c])
theorem at3_v25 : W3 m ρ c (Proc.devRef .tc main_v25) = normCol (m ((c : Thread nD τ).loc main_arg2)) :=
  (line1_v25 (W2 m ρ c)).trans (by rw [at2_v12 m ρ c]; rfl)
theorem at3_v26 : W3 m ρ c (Proc.devRef .tc main_v26) = (shapeCast S1x128 (m ((c : Thread nD τ).loc main_arg4)) shapeCasts_S128_S1x128) :=
  (line1_v26 (W2 m ρ c)).trans (by rw [at2_a4 m ρ c])

theorem at4_sum : W4 m ρ c (Proc.devRef .tc main_v27_0) = colSum (conv1 (m ((c : Thread nD τ).loc main_arg0)) (m ((c : Thread nD τ).loc main_arg1)) (m ((c : Thread nD τ).loc main_arg2)) (m ((c : Thread nD τ).loc main_arg3)) (m ((c : Thread nD τ).loc main_arg4))) :=
  (W4_arr m ρ c 3).trans ((Region1.sum_value (V3 m ρ) c).trans (by
    show colSum (scaleShift (W3 m ρ c (Proc.devRef .tc main_v24)) (W3 m ρ c (Proc.devRef .tc main_v25)) (W3 m ρ c (Proc.devRef .tc main_v26))) = _
    rw [at3_v24 m ρ c, at3_v25 m ρ c, at3_v26 m ρ c]; rfl))
theorem at4_sumsq : W4 m ρ c (Proc.devRef .tc main_v27_1) = colSum (sq (conv1 (m ((c : Thread nD τ).loc main_arg0)) (m ((c : Thread nD τ).loc main_arg1)) (m ((c : Thread nD τ).loc main_arg2)) (m ((c : Thread nD τ).loc main_arg3)) (m ((c : Thread nD τ).loc main_arg4)))) :=
  (W4_arr m ρ c 4).trans ((Region1.sumsq_value (V3 m ρ) c).trans (by
    show colSum (sq (scaleShift (W3 m ρ c (Proc.devRef .tc main_v24)) (W3 m ρ c (Proc.devRef .tc main_v25)) (W3 m ρ c (Proc.devRef .tc main_v26)))) = _
    rw [at3_v24 m ρ c, at3_v25 m ρ c, at3_v26 m ρ c]; rfl))
theorem at4_v24 : W4 m ρ c (Proc.devRef .tc main_v24) = (aggregate128 (F := Ideal) (m ((c : Thread nD τ).loc main_arg1)) (m ((c : Thread nD τ).loc main_arg2)) (scaledProduct (m ((c : Thread nD τ).loc main_arg0)) (normCol (m ((c : Thread nD τ).loc main_arg1))) (m ((c : Thread nD τ).loc main_arg3)))) :=
  ((W4_arr m ρ c 0).trans (((dat1 (V3 m ρ) c).arrAt_in 0 rfl _).trans (A_eq1 (V3 m ρ) c 0))).trans (at3_v24 m ρ c)

theorem at5_v24 : W5 m ρ c (Proc.devRef .tc main_v24) = (aggregate128 (F := Ideal) (m ((c : Thread nD τ).loc main_arg1)) (m ((c : Thread nD τ).loc main_arg2)) (scaledProduct (m ((c : Thread nD τ).loc main_arg0)) (normCol (m ((c : Thread nD τ).loc main_arg1))) (m ((c : Thread nD τ).loc main_arg3)))) :=
  (show W5 m ρ c (Proc.devRef .tc main_v24) = W4 m ρ c (Proc.devRef .tc main_v24) from by untouched_by hostOps2).trans (at4_v24 m ρ c)
theorem at5_v36 : W5 m ρ c (Proc.devRef .tc main_v36) = normCol (m ((c : Thread nD τ).loc main_arg2)) :=
  (line2_v36 (W4 m ρ c)).trans (by rw [at4_v12 m ρ c]; rfl)
theorem at5_v37 : W5 m ρ c (Proc.devRef .tc main_v37) = (shapeCast S1x128 (m ((c : Thread nD τ).loc main_arg4)) shapeCasts_S128_S1x128) :=
  (line2_v37 (W4 m ρ c)).trans (by rw [at4_a4 m ρ c])
theorem at5_v38 : W5 m ρ c (Proc.devRef .tc main_v38) = (shapeCast S1x128 (colMean (F := Ideal) (colSum (conv1 (m ((c : Thread nD τ).loc main_arg0)) (m ((c : Thread nD τ).loc main_arg1)) (m ((c : Thread nD τ).loc main_arg2)) (m ((c : Thread nD τ).loc main_arg3)) (m ((c : Thread nD τ).loc main_arg4))))) shapeCasts_S128_S1x128) :=
  (line2_v38 (W4 m ρ c)).trans (by rw [at4_sum m ρ c])
theorem at5_v39 : W5 m ρ c (Proc.devRef .tc main_v39) = (shapeCast S1x128 (colVar (F := Ideal) (colSum (conv1 (m ((c : Thread nD τ).loc main_arg0)) (m ((c : Thread nD τ).loc main_arg1)) (m ((c : Thread nD τ).loc main_arg2)) (m ((c : Thread nD τ).loc main_arg3)) (m ((c : Thread nD τ).loc main_arg4)))) (colSum (sq (conv1 (m ((c : Thread nD τ).loc main_arg0)) (m ((c : Thread nD τ).loc main_arg1)) (m ((c : Thread nD τ).loc main_arg2)) (m ((c : Thread nD τ).loc main_arg3)) (m ((c : Thread nD τ).loc main_arg4)))))) shapeCasts_S128_S1x128) :=
  (line2_v39 (W4 m ρ c)).trans (by rw [at4_sum m ρ c, at4_sumsq m ρ c])
theorem at5_v40 : W5 m ρ c (Proc.devRef .tc main_v40) = (shapeCast S1x128 (m ((c : Thread nD τ).loc main_arg5)) shapeCasts_S128_S1x128) :=
  (line2_v40 (W4 m ρ c)).trans (by rw [at4_a5 m ρ c])
theorem at5_v41 : W5 m ρ c (Proc.devRef .tc main_v41) = (shapeCast S1x128 (m ((c : Thread nD τ).loc main_arg6)) shapeCasts_S128_S1x128) :=
  (line2_v41 (W4 m ρ c)).trans (by rw [at4_a6 m ρ c])

theorem at6_v42 : W6 m ρ c (Proc.devRef .tc main_v42) = (normalisedK (m ((c : Thread nD τ).loc main_arg5)) (m ((c : Thread nD τ).loc main_arg6)) (conv1 (m ((c : Thread nD τ).loc main_arg0)) (m ((c : Thread nD τ).loc main_arg1)) (m ((c : Thread nD τ).loc main_arg2)) (m ((c : Thread nD τ).loc main_arg3)) (m ((c : Thread nD τ).loc main_arg4)))) :=
  (W6_arr m ρ c 7).trans ((Region2.value (V5 m ρ) c).trans (by
    show normRelu (scaleShift (W5 m ρ c (Proc.devRef .tc main_v24)) (W5 m ρ c (Proc.devRef .tc main_v36)) (W5 m ρ c (Proc.devRef .tc main_v37))) (W5 m ρ c (Proc.devRef .tc main_v38)) (W5 m ρ c (Proc.devRef .tc main_v39))
      (W5 m ρ c (Proc.devRef .tc main_v40)) (W5 m ρ c (Proc.devRef .tc main_v41)) epsW zeroW = _
    rw [at5_v24 m ρ c, at5_v36 m ρ c, at5_v37 m ρ c, at5_v38 m ρ c, at5_v39 m ρ c, at5_v40 m ρ c, at5_v41 m ρ c]; rfl))

theorem at7_v42 : W7 m ρ c (Proc.devRef .tc main_v42) = (normalisedK (m ((c : Thread nD τ).loc main_arg5)) (m ((c : Thread nD τ).loc main_arg6)) (conv1 (m ((c : Thread nD τ).loc main_arg0)) (m ((c : Thread nD τ).loc main_arg1)) (m ((c : Thread nD τ).loc main_arg2)) (m ((c : Thread nD τ).loc main_arg3)) (m ((c : Thread nD τ).loc main_arg4)))) :=
  (show W7 m ρ c (Proc.devRef .tc main_v42) = W6 m ρ c (Proc.devRef .tc main_v42) from by untouched_by hostOps3).trans (at6_v42 m ρ c)
theorem at7_v43 : W7 m ρ c (Proc.devRef .tc main_v43) = normCol (m ((c : Thread nD τ).loc main_arg1)) :=
  (line3_v43 (W6 m ρ c)).trans (by rw [at6_v9 m ρ c]; rfl)

theorem at8_v44 : W8 m ρ c (Proc.devRef .tc main_v44) = scaledProduct (normalisedK (m ((c : Thread nD τ).loc main_arg5)) (m ((c : Thread nD τ).loc main_arg6)) (conv1 (m ((c : Thread nD τ).loc main_arg0)) (m ((c : Thread nD τ).loc main_arg1)) (m ((c : Thread nD τ).loc main_arg2)) (m ((c : Thread nD τ).loc main_arg3)) (m ((c : Thread nD τ).loc main_arg4)))) (normCol (m ((c : Thread nD τ).loc main_arg1))) (m ((c : Thread nD τ).loc main_arg7)) :=
  (W8_arr m ρ c 3).trans ((Region3.value (V7 m ρ) c).trans (by
    show scaledProduct (W7 m ρ c (Proc.devRef .tc main_v42)) (W7 m ρ c (Proc.devRef .tc main_v43)) (W7 m ρ c (Proc.devRef .tc main_arg7)) = _
    rw [at7_v42 m ρ c, at7_v43 m ρ c, at7_a7 m ρ c]))

theorem at9_v54 : W9 m ρ c (Proc.devRef .tc main_v54) = aggregate64 (F := Ideal) (m ((c : Thread nD τ).loc main_arg1)) (m ((c : Thread nD τ).loc main_arg2)) (scaledProduct (normalisedK (m ((c : Thread nD τ).loc main_arg5)) (m ((c : Thread nD τ).loc main_arg6)) (conv1 (m ((c : Thread nD τ).loc main_arg0)) (m ((c : Thread nD τ).loc main_arg1)) (m ((c : Thread nD τ).loc main_arg2)) (m ((c : Thread nD τ).loc main_arg3)) (m ((c : Thread nD τ).loc main_arg4)))) (normCol (m ((c : Thread nD τ).loc main_arg1))) (m ((c : Thread nD τ).loc main_arg7))) :=
  (line4_v54 (W8 m ρ c)).trans (by rw [at8_a1 m ρ c, at8_a2 m ρ c, at8_v44 m ρ c])
theorem at9_v55 : W9 m ρ c (Proc.devRef .tc main_v55) = normCol (m ((c : Thread nD τ).loc main_arg2)) :=
  (line4_v55 (W8 m ρ c)).trans (by rw [at8_v12 m ρ c]; rfl)
theorem at9_v56 : W9 m ρ c (Proc.devRef .tc main_v56) = shapeCast S1x64 (m ((c : Thread nD τ).loc main_arg8)) shapeCasts_S64_S1x64 :=
  (line4_v56 (W8 m ρ c)).trans (by rw [at8_a8 m ρ c])

/-- THE KERNEL PROGRAM'S RESULT ARRAY at the last boundary: the shared tail of the kernel's normalised features of
    the first convolution, of the argument arrays as launched. -/
theorem result : W10 m ρ c (Proc.devRef .tc main_v57) = tailOut (m ((c : Thread nD τ).loc main_arg1)) (m ((c : Thread nD τ).loc main_arg2)) (m ((c : Thread nD τ).loc main_arg7)) (m ((c : Thread nD τ).loc main_arg8)) (normalisedK (m ((c : Thread nD τ).loc main_arg5)) (m ((c : Thread nD τ).loc main_arg6)) (conv1 (m ((c : Thread nD τ).loc main_arg0)) (m ((c : Thread nD τ).loc main_arg1)) (m ((c : Thread nD τ).loc main_arg2)) (m ((c : Thread nD τ).loc main_arg3)) (m ((c : Thread nD τ).loc main_arg4)))) :=
  (W10_arr m ρ c 3).trans ((Region4.value (V9 m ρ) c).trans (by
    show scaleShift (W9 m ρ c (Proc.devRef .tc main_v54)) (W9 m ρ c (Proc.devRef .tc main_v55)) (W9 m ρ c (Proc.devRef .tc main_v56)) = _
    rw [at9_v54 m ρ c, at9_v55 m ρ c, at9_v56 m ρ c]; rfl))

end Cert.Bridge.KValue

end
-- ==== Proof.LibRowCast.lean ====
/-
  Two reshapes read at an index: a length-`n` vector presented as the one row `[1, n]`, and back.
  Both keep the row-major position, so entry `(0, q)` of the row is entry `q` of the vector.
-/
import Idealize.ShloMosaic.Lib.Pipeline.Value
import Idealize.ShloMosaic.Lib.ValueIdx

noncomputable section

namespace Cert.Bridge

open Idealize.ShloMosaic Idealize.ShloMosaic.ValueIdx

variable {α : Type} {n : Nat}

/-- A vector cast to one row reads, at `(0, q)`, the vector at `q`. -/
theorem rowCast_apply (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

/-- One row cast to a vector reads, at `q`, the row at `(0, q)`. -/
theorem rowUncast_apply (x : (⟨2, ![1, n]⟩ : Shape).Idx → α) (h : (⟨2, ![1, n]⟩ : Shape).ShapeCasts ⟨1, ![n]⟩) (q : Fin n) :
    shapeCast ⟨1, ![n]⟩ x h (ix1 q) = x (ix2 (0 : Fin 1) q) :=
  shapeCast_apply x h (ix1 q) (ix2 (0 : Fin 1) q) (by
    rw [Shape.rowMajor_val_two, Shape.rowMajor_val_one]; show 0 * n + q.val = q.val; omega)

end Cert.Bridge

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.RefValue.lean ====
/-
  The reference program's result, read stage by stage.

  The reference is one straight line of host operations.  Read at an index, its stages are: the product of the
  row-scaled features with the first weight matrix; the aggregation along the edges; `H = agg · nd + b₁`; the column
  mean `(0 + ∑ₙ H(n,j)) / N` and the centred variance `(0 + ∑ₙ (H(n,j) - mean)²) / N`; the normalised, scaled, shifted
  and rectified features; and the second convolution, which is the same tail of operations the kernel's program
  applies.  Each broadcast of a vector along rows or columns reads the vector at the surviving coordinate.
-/
import proofs.«164736_j21964462752266_1_alg».proof.Proof.Gen.ReferenceIdeal.Read
import proofs.«164736_j21964462752266_1_alg».proof.Proof.KSpec
import proofs.«164736_j21964462752266_1_alg».proof.Proof.LibRowCast
import proofs.«164736_j21964462752266_1_alg».proof.Proof.LibColumn

noncomputable section

namespace Cert.Bridge.Ref

open Idealize.ShloMosaic Idealize.ShloMosaic.ValueIdx
open Cert.ReferenceIdeal Cert.ReferenceIdeal.Read Cert.Bridge
open scoped BigOperators

variable (x0 : (⟨S100000x128, .f32⟩ : BufTy).Contents (Elt Ideal)) (x1 x2 : (⟨S1600000, .i32⟩ : BufTy).Contents (Elt Ideal)) (x3 : (⟨S128x128, .f32⟩ : BufTy).Contents (Elt Ideal))
  (x4 x5 x6 : (⟨S128, .f32⟩ : BufTy).Contents (Elt Ideal)) (x7 : (⟨S128x64, .f32⟩ : BufTy).Contents (Elt Ideal)) (x8 : (⟨S64, .f32⟩ : BufTy).Contents (Elt Ideal))

/-- The reference's two degree normalisations are the shared ones. -/
theorem norm_src : val_main_v9 (F := Ideal) x1 = degNorm (F := Ideal) x1 := rfl
theorem norm_dst : val_main_v12 (F := Ideal) x2 = degNorm (F := Ideal) x2 := rfl

/-- The first product: `∑ₖ (x(n,k) · ns(n)) · W₁(k,j)`. -/
theorem product1 : val_main_v16 (F := Ideal) x0 x1 x3 = scaledProduct x0 (normCol x1) x3 := by
  funext i
  obtain ⟨n, j, rfl⟩ : ∃ (n : Fin 100000) (j : Fin 128), i = ix2 n j := ⟨i 0, i 1, eq_ix2 i⟩
  rw [val_main_v16_apply]
  unfold scaledProduct normCol
  refine Finset.sum_congr rfl fun k _ => ?_
  rw [val_main_v15_apply, val_main_v14_apply, val_main_v13_apply, norm_src, Cert.Lib.Column.shapeCast_a_a1_apply]
  have e1 : lidx_main_v16 (ix2 n j) k = ix2 n k := funext fun a => Fin.ext (by match a with | ⟨0, _⟩ => rfl | ⟨1, _⟩ => rfl)
  have e2 : ridx_main_v16 (ix2 n j) k = ix2 k j := funext fun a => Fin.ext (by match a with | ⟨0, _⟩ => rfl | ⟨1, _⟩ => rfl)
  have e3 : idx_main_v13 (idx_main_v14 (ix2 n k)) = ix1 n := funext fun a => Fin.ext (by match a with | ⟨0, _⟩ => rfl)
  rw [e1, e2, e3]
  rfl

/-- The first aggregation is the shared one, of the first product. -/
theorem aggregate1 : val_main_v26 (F := Ideal) x0 x1 x2 x3 = aggregate128 (F := Ideal) x1 x2 (val_main_v16 (F := Ideal) x0 x1 x3) := by
  unfold val_main_v26 val_main_v23 val_main_v22 val_main_v21 val_main_v20 val_main_v18 val_main_v19 val_main_v17 val_main_v24 val_main_v25
    val_main_c val_main_c_4 val_main_cst_5 aggregate128 wrapIdx
  rfl

/-- `H = agg · nd + b₁`. -/
theorem convolved1 : val_main_v32 (F := Ideal) x0 x1 x2 x3 x4 = conv1 x0 x1 x2 x3 x4 := by
  unfold conv1
  rw [← product1, ← aggregate1]
  funext i
  obtain ⟨n, j, rfl⟩ : ∃ (n : Fin 100000) (j : Fin 128), i = ix2 n j := ⟨i 0, i 1, eq_ix2 i⟩
  rw [val_main_v32_apply, val_main_v29_apply, val_main_v28_apply, val_main_v27_apply, val_main_v31_apply, val_main_v30_apply, norm_dst]
  unfold scaleShift normCol
  rw [Cert.Lib.Column.shapeCast_a_a1_apply, rowCast_apply]
  have e1 : idx_main_v27 (idx_main_v28 (ix2 n j)) = ix1 n := funext fun a => Fin.ext (by match a with | ⟨0, _⟩ => rfl)
  have e2 : idx_main_v30 (idx_main_v31 (ix2 n j)) = ix1 j := funext fun a => Fin.ext (by match a with | ⟨0, _⟩ => rfl)
  rw [e1, e2]
  rfl

/-- The column mean: `(0 + ∑ₙ H(n,j)) / N`. -/
theorem mean_apply (j : Fin 128) : val_main_v35 (F := Ideal) x0 x1 x2 x3 x4 (ix1 j) = meanR (val_main_v32 (F := Ideal) x0 x1 x2 x3 x4) j := by
  rw [val_main_v35_apply, val_main_v33_apply, val_main_v34_apply]
  unfold meanR
  have e : ∀ k : Fin 100000, idx_main_v33 (ix1 j) k = ix2 k j := fun k => funext fun a => Fin.ext (by match a with | ⟨0, _⟩ => rfl | ⟨1, _⟩ => rfl)
  exact congrArg₂ Ideal.div (congrArg₂ (· + ·) rfl (Finset.sum_congr rfl fun k _ => congrArg _ (e k))) rfl

/-- The centred variance: `(0 + ∑ₙ (H(n,j) - mean)²) / N`. -/
theorem var_apply (j : Fin 128) : val_main_v42 (F := Ideal) x0 x1 x2 x3 x4 (ix1 j)
    = Ideal.div (zeroW + ∑ k : Fin 100000, (val_main_v32 (F := Ideal) x0 x1 x2 x3 x4 (ix2 k j) - meanR (val_main_v32 (F := Ideal) x0 x1 x2 x3 x4) j)
        * (val_main_v32 (F := Ideal) x0 x1 x2 x3 x4 (ix2 k j) - meanR (val_main_v32 (F := Ideal) x0 x1 x2 x3 x4) j)) rowsW := by
  rw [val_main_v42_apply, val_main_v40_apply, val_main_v41_apply]
  have e : ∀ k : Fin 100000, idx_main_v40 (ix1 j) k = ix2 k j := fun k => funext fun a => Fin.ext (by match a with | ⟨0, _⟩ => rfl | ⟨1, _⟩ => rfl)
  have e' : ∀ k : Fin 100000, idx_main_v36 (idx_main_v37 (ix2 k j)) = ix1 j := fun k => funext fun a => Fin.ext (by match a with | ⟨0, _⟩ => rfl)
  refine congrArg₂ Ideal.div (congrArg₂ (· + ·) rfl (Finset.sum_congr rfl fun k _ => ?_)) rfl
  rw [e k, val_main_v39_apply, val_main_v38_apply, val_main_v37_apply, val_main_v36_apply, e' k, mean_apply]
  rfl

/-- The normalised, scaled, shifted and rectified features. -/
theorem normalised : val_main_v58 (F := Ideal) x0 x1 x2 x3 x4 x5 x6 = normalisedR x5 x6 (val_main_v32 (F := Ideal) x0 x1 x2 x3 x4) := by
  funext i
  obtain ⟨n, j, rfl⟩ : ∃ (n : Fin 100000) (j : Fin 128), i = ix2 n j := ⟨i 0, i 1, eq_ix2 i⟩
  have e1 : idx_main_v43 (idx_main_v44 (ix2 n j)) = ix1 j := funext fun a => Fin.ext (by match a with | ⟨0, _⟩ => rfl)
  have e2 : idx_main_v49 (idx_main_v50 (ix2 n j)) = ix1 j := funext fun a => Fin.ext (by match a with | ⟨0, _⟩ => rfl)
  have e3 : idx_main_v52 (idx_main_v53 (ix2 n j)) = ix1 j := funext fun a => Fin.ext (by match a with | ⟨0, _⟩ => rfl)
  have e4 : idx_main_v55 (idx_main_v56 (ix2 n j)) = ix1 j := funext fun a => Fin.ext (by match a with | ⟨0, _⟩ => rfl)
  rw [val_main_v58_apply, val_main_v57_apply, val_main_v54_apply, val_main_v51_apply, val_main_v45_apply,
    val_main_v44_apply, val_main_v43_apply, e1, mean_apply,
    val_main_v50_apply, val_main_v49_apply, e2, val_main_v48_apply, val_main_v47_apply, var_apply, val_main_v46_apply,
    val_main_v53_apply, val_main_v52_apply, e3, val_main_v56_apply, val_main_v55_apply, e4, val_main_call0_v0_apply]
  unfold normalisedR
  simp only [colOf_ix2]
  rfl

/-- The second product, aggregation and epilogue: the shared tail, of the reference's normalised features. -/
theorem product2 : val_main_v62 (F := Ideal) x0 x1 x2 x3 x4 x5 x6 x7 = scaledProduct (val_main_v58 (F := Ideal) x0 x1 x2 x3 x4 x5 x6) (normCol x1) x7 := by
  funext i
  obtain ⟨n, j, rfl⟩ : ∃ (n : Fin 100000) (j : Fin 64), i = ix2 n j := ⟨i 0, i 1, eq_ix2 i⟩
  rw [val_main_v62_apply]
  unfold scaledProduct normCol
  refine Finset.sum_congr rfl fun k _ => ?_
  rw [val_main_v61_apply, val_main_v60_apply, val_main_v59_apply, norm_src, Cert.Lib.Column.shapeCast_a_a1_apply]
  have e1 : lidx_main_v62 (ix2 n j) k = ix2 n k := funext fun a => Fin.ext (by match a with | ⟨0, _⟩ => rfl | ⟨1, _⟩ => rfl)
  have e2 : ridx_main_v62 (ix2 n j) k = ix2 k j := funext fun a => Fin.ext (by match a with | ⟨0, _⟩ => rfl | ⟨1, _⟩ => rfl)
  have e3 : idx_main_v59 (idx_main_v60 (ix2 n k)) = ix1 n := funext fun a => Fin.ext (by match a with | ⟨0, _⟩ => rfl)
  rw [e1, e2, e3]
  rfl

theorem aggregate2 : val_main_v72 (F := Ideal) x0 x1 x2 x3 x4 x5 x6 x7 = aggregate64 (F := Ideal) x1 x2 (val_main_v62 (F := Ideal) x0 x1 x2 x3 x4 x5 x6 x7) := by
  unfold val_main_v72 val_main_v69 val_main_v68 val_main_v67 val_main_v66 val_main_v64 val_main_v65 val_main_v63 val_main_v70 val_main_v71
    val_main_c_11 val_main_c_12 val_main_cst_13 aggregate64 wrapIdx
  rfl

/-- THE REFERENCE'S RESULT: the shared tail of its normalised features of the first convolution. -/
theorem result : val_main_v78 (F := Ideal) x0 x1 x2 x3 x4 x5 x6 x7 x8
    = tailOut x1 x2 x7 x8 (normalisedR x5 x6 (conv1 x0 x1 x2 x3 x4)) := by
  unfold tailOut
  rw [← convolved1, ← normalised, ← product2, ← aggregate2]
  funext i
  obtain ⟨n, j, rfl⟩ : ∃ (n : Fin 100000) (j : Fin 64), i = ix2 n j := ⟨i 0, i 1, eq_ix2 i⟩
  rw [val_main_v78_apply, val_main_v75_apply, val_main_v74_apply, val_main_v73_apply, val_main_v77_apply, val_main_v76_apply, norm_dst]
  unfold scaleShift normCol
  rw [Cert.Lib.Column.shapeCast_a_a1_apply, rowCast_apply]
  have e1 : idx_main_v73 (idx_main_v74 (ix2 n j)) = ix1 n := funext fun a => Fin.ext (by match a with | ⟨0, _⟩ => rfl)
  have e2 : idx_main_v76 (idx_main_v77 (ix2 n j)) = ix1 j := funext fun a => Fin.ext (by match a with | ⟨0, _⟩ => rfl)
  rw [e1, e2]
  rfl

end Cert.Bridge.Ref

end
-- ==== Proof.LibBatchNorm.lean ====
/-
  Training-mode batch normalisation followed by a rectifier, over the extended reals, for a
  column of finite entries, written in two ways.

  For `h : Fin n → ℝ` with `n > 0`: the mean is `(∑ h) / n`, the (biased) variance is
  `(∑ (h k - mean)²) / n ≥ 0`, and `(∑ h²) / n - mean² = variance` (the divisor has to be exactly
  `n`), so the maximum of that difference with `0` is the variance again. With `e > 0` the sum
  `variance + e` is positive, so its reciprocal square root is the real `(√(variance + e))⁻¹`.
  Finally `h · (g · inv) + (b - g · mean · inv) = g · (h - mean) · inv + b`.
  Every intermediate value is a finite real, so each extended-real operation is the coercion of
  the real one.
-/
import Idealize.ShloMosaic.PureOps.Ideal

open Idealize.ShloMosaic
open scoped BigOperators

noncomputable section

namespace Cert.LibBatchNorm

/-- The mean of a column. -/
def mean {n : ℕ} (h : Fin n → ℝ) : ℝ := (∑ k, h k) / n

/-- The biased variance of a column: the mean of the squared deviations. -/
def var {n : ℕ} (h : Fin n → ℝ) : ℝ := (∑ k, (h k - mean h) * (h k - mean h)) / n

/-- Batch normalisation with scale `g`, shift `b`, stabiliser `e`, then the rectifier. -/
def bnRelu {n : ℕ} (h : Fin n → ℝ) (g b e : ℝ) (i : Fin n) : ℝ :=
  max (g * (h i - mean h) * (Real.sqrt (var h + e))⁻¹ + b) 0

/-! ### General helpers -/

/-- The coercion of a finite real sum is the sum of the coercions. -/
theorem coe_sum {ι : Type*} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The quotient of two reals, the divisor nonzero, is the coercion of the real quotient. -/
theorem div_coe_coe (a : ℝ) {y : ℝ} (hy : y ≠ 0) :
    Ideal.div (a : EReal) (y : EReal) = ((a / y : ℝ) : EReal) := by
  rw [Ideal.div_coe hy, ← EReal.coe_mul, mul_one_div]

/-- A sum of products of reals is the coercion of the real sum of products. -/
theorem sum_mul_coe {ι : Type*} [Fintype ι] (a w : ι → ℝ) :
    ∑ k, (a k : EReal) * (w k : EReal) = ((∑ k, a k * w k : ℝ) : EReal) := by
  rw [coe_sum]
  exact Finset.sum_congr rfl (fun k _ => (EReal.coe_mul _ _).symm)

/-- The maximum of two reals: the coercion is monotone. -/
theorem coe_max (a b : ℝ) : max (a : EReal) (b : EReal) = ((max a b : ℝ) : EReal) :=
  (EReal.coe_strictMono.monotone.map_max).symm

/-- The reciprocal square root of a positive real is the real `(√r)⁻¹`. -/
theorem rsqrt_pos_coe {r : ℝ} (hr : 0 < r) :
    Ideal.rsqrt (r : EReal) = (((Real.sqrt r)⁻¹ : ℝ) : EReal) := by
  rw [Ideal.rsqrt_coe, if_neg (not_lt.mpr hr.le), if_neg hr.ne']

/-! ### The statistics -/

/-- A variance is a mean of squares. -/
theorem var_nonneg {n : ℕ} (h : Fin n → ℝ) : 0 ≤ var h :=
  div_nonneg (Finset.sum_nonneg fun k _ => mul_self_nonneg _) (Nat.cast_nonneg n)

/-- Mean of the squares minus square of the mean is the variance. -/
theorem var_eq {n : ℕ} (hn : 0 < n) (h : Fin n → ℝ) :
    (∑ k, h k * h k) / n - mean h * mean h = var h := by
  have hN : (n : ℝ) ≠ 0 := Nat.cast_ne_zero.mpr hn.ne'
  have hS : ∑ k, h k = n * mean h := by
    unfold mean
    field_simp
  have hexp : ∑ k, (h k - mean h) * (h k - mean h)
      = (∑ k, h k * h k) - 2 * mean h * (n * mean h) + n * (mean h * mean h) := by
    have hk : ∀ k, (h k - mean h) * (h k - mean h)
        = h k * h k - 2 * mean h * h k + mean h * mean h := fun k => by ring
    simp only [hk, Finset.sum_add_distrib, Finset.sum_sub_distrib, ← Finset.mul_sum,
      Finset.sum_const, Finset.card_univ, Fintype.card_fin, nsmul_eq_mul]
    rw [hS]
    ring
  unfold var
  rw [hexp]
  field_simp
  ring

/-- The variance plus a positive stabiliser is positive. -/
theorem var_add_pos {n : ℕ} (h : Fin n → ℝ) {e : ℝ} (he : 0 < e) : 0 < var h + e :=
  add_pos_of_nonneg_of_pos (var_nonneg h) he

/-! ### The two written forms -/

/-- The first written form: the statistics as the sum and the sum of squares, the output as
    the affine map `h · scale + shift`. -/
theorem scaleShift_form {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let Q : EReal := ∑ k, (h k : EReal) * (h k : EReal)
    let mu : EReal := Ideal.div S c
    let inv : EReal := Ideal.rsqrt (max (Ideal.div Q c - mu * mu) z + eps)
    max ((h i : EReal) * ((g : EReal) * inv) + ((b : EReal) - (g : EReal) * mu * inv)) z
      = ((bnRelu h g b e i : ℝ) : EReal) := by
  intro S Q mu inv
  subst hc heps hz
  have hN : (n : ℝ) ≠ 0 := Nat.cast_ne_zero.mpr hn.ne'
  have hS : S = ((∑ k, h k : ℝ) : EReal) := (coe_sum _ _).symm
  have hQ : Q = ((∑ k, h k * h k : ℝ) : EReal) := sum_mul_coe h h
  have hmu : mu = ((mean h : ℝ) : EReal) := by
    show Ideal.div S _ = _
    rw [hS, div_coe_coe _ hN]
    rfl
  have hinv : inv = (((Real.sqrt (var h + e))⁻¹ : ℝ) : EReal) := by
    show Ideal.rsqrt (max (Ideal.div Q _ - mu * mu) 0 + _) = _
    rw [hQ, hmu, div_coe_coe _ hN, ← EReal.coe_mul, ← EReal.coe_sub, var_eq hn h,
      ← EReal.coe_zero, coe_max, max_eq_left (var_nonneg h), ← EReal.coe_add,
      rsqrt_pos_coe (var_add_pos h he)]
  show max ((h i : EReal) * ((g : EReal) * inv) + ((b : EReal) - (g : EReal) * mu * inv)) 0 = _
  rw [hinv, hmu]
  have hreal : (h i : EReal) * ((g : EReal) * (((Real.sqrt (var h + e))⁻¹ : ℝ) : EReal))
      + ((b : EReal) - (g : EReal) * ((mean h : ℝ) : EReal) * (((Real.sqrt (var h + e))⁻¹ : ℝ) : EReal))
      = ((g * (h i - mean h) * (Real.sqrt (var h + e))⁻¹ + b : ℝ) : EReal) := by
    rw [← EReal.coe_mul, ← EReal.coe_mul, ← EReal.coe_mul, ← EReal.coe_mul, ← EReal.coe_sub,
      ← EReal.coe_add]
    congr 1
    ring
  rw [hreal, ← EReal.coe_zero, coe_max]
  rfl

/-- The second written form: the centred statistics. -/
theorem centred_form {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let mu : EReal := Ideal.div S c
    let D : EReal := ∑ k, ((h k : EReal) - mu) * ((h k : EReal) - mu)
    max ((g : EReal) * ((h i : EReal) - mu) * Ideal.rsqrt (Ideal.div D c + eps) + (b : EReal)) z
      = ((bnRelu h g b e i : ℝ) : EReal) := by
  intro S mu D
  subst hc heps hz
  have hN : (n : ℝ) ≠ 0 := Nat.cast_ne_zero.mpr hn.ne'
  have hS : S = ((∑ k, h k : ℝ) : EReal) := (coe_sum _ _).symm
  have hmu : mu = ((mean h : ℝ) : EReal) := by
    show Ideal.div S _ = _
    rw [hS, div_coe_coe _ hN]
    rfl
  have hD : D = ((∑ k, (h k - mean h) * (h k - mean h) : ℝ) : EReal) := by
    show ∑ k, ((h k : EReal) - mu) * ((h k : EReal) - mu) = _
    rw [hmu, coe_sum]
    refine Finset.sum_congr rfl (fun k _ => ?_)
    rw [EReal.coe_mul, EReal.coe_sub]
  have hr : Ideal.rsqrt (Ideal.div D ((n : ℝ) : EReal) + (e : EReal))
      = (((Real.sqrt (var h + e))⁻¹ : ℝ) : EReal) := by
    rw [hD, div_coe_coe _ hN, ← EReal.coe_add]
    exact rsqrt_pos_coe (var_add_pos h he)
  rw [hr, hmu, ← EReal.coe_sub, ← EReal.coe_mul, ← EReal.coe_mul, ← EReal.coe_add,
    ← EReal.coe_zero, coe_max]
  rfl

/-- The two written forms have the same value. -/
theorem scaleShift_eq_centred {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let Q : EReal := ∑ k, (h k : EReal) * (h k : EReal)
    let mu : EReal := Ideal.div S c
    let inv : EReal := Ideal.rsqrt (max (Ideal.div Q c - mu * mu) z + eps)
    let D : EReal := ∑ k, ((h k : EReal) - mu) * ((h k : EReal) - mu)
    max ((h i : EReal) * ((g : EReal) * inv) + ((b : EReal) - (g : EReal) * mu * inv)) z
      = max ((g : EReal) * ((h i : EReal) - mu) * Ideal.rsqrt (Ideal.div D c + eps) + (b : EReal)) z := by
  intro S Q mu inv D
  exact (scaleShift_form hn h g b e he c eps z hc heps hz i).trans
    (centred_form hn h g b e he c eps z hc heps hz i).symm

/-! ### The same three statements with the abbreviations written out -/

/-- The first written form, every intermediate value written out in place. -/
theorem scaleShift_form_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((h i : EReal) * ((g : EReal)
          * Ideal.rsqrt (max (Ideal.div (∑ k, (h k : EReal) * (h k : EReal)) c
              - Ideal.div (∑ k, (h k : EReal)) c * Ideal.div (∑ k, (h k : EReal)) c) z + eps))
        + ((b : EReal) - (g : EReal) * Ideal.div (∑ k, (h k : EReal)) c
          * Ideal.rsqrt (max (Ideal.div (∑ k, (h k : EReal) * (h k : EReal)) c
              - Ideal.div (∑ k, (h k : EReal)) c * Ideal.div (∑ k, (h k : EReal)) c) z + eps))) z
      = ((bnRelu h g b e i : ℝ) : EReal) :=
  scaleShift_form hn h g b e he c eps z hc heps hz i

/-- The second written form, every intermediate value written out in place. -/
theorem centred_form_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((g : EReal) * ((h i : EReal) - Ideal.div (∑ k, (h k : EReal)) c)
        * Ideal.rsqrt (Ideal.div (∑ k, ((h k : EReal) - Ideal.div (∑ k, (h k : EReal)) c)
            * ((h k : EReal) - Ideal.div (∑ k, (h k : EReal)) c)) c + eps) + (b : EReal)) z
      = ((bnRelu h g b e i : ℝ) : EReal) :=
  centred_form hn h g b e he c eps z hc heps hz i

/-- The two written forms, written out in place, have the same value. -/
theorem scaleShift_eq_centred_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((h i : EReal) * ((g : EReal)
          * Ideal.rsqrt (max (Ideal.div (∑ k, (h k : EReal) * (h k : EReal)) c
              - Ideal.div (∑ k, (h k : EReal)) c * Ideal.div (∑ k, (h k : EReal)) c) z + eps))
        + ((b : EReal) - (g : EReal) * Ideal.div (∑ k, (h k : EReal)) c
          * Ideal.rsqrt (max (Ideal.div (∑ k, (h k : EReal) * (h k : EReal)) c
              - Ideal.div (∑ k, (h k : EReal)) c * Ideal.div (∑ k, (h k : EReal)) c) z + eps))) z
      = max ((g : EReal) * ((h i : EReal) - Ideal.div (∑ k, (h k : EReal)) c)
        * Ideal.rsqrt (Ideal.div (∑ k, ((h k : EReal) - Ideal.div (∑ k, (h k : EReal)) c)
            * ((h k : EReal) - Ideal.div (∑ k, (h k : EReal)) c)) c + eps) + (b : EReal)) z :=
  (scaleShift_form_inl hn h g b e he c eps z hc heps hz i).trans
    (centred_form_inl hn h g b e he c eps z hc heps hz i).symm

end Cert.LibBatchNorm
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.LibVarianceForms.lean ====
/-
  Column statistics over the extended reals.

  For a column `h` of `n > 0` real entries, read as extended reals, the two ways of writing the
  biased variance agree: the mean of the squares minus the square of the mean equals the mean of
  the squared deviations from the mean.  Every sum is taken from a zero initial value `z` and every
  quotient is by the extended real `c` that denotes `n`.  The identity is the real one
  `(∑ h²)/n - ((∑ h)/n)² = (∑ (h - (∑ h)/n)²)/n`; it holds on the extended reals because each
  intermediate value is the coercion of a real (an infinite entry would break it: subtraction of
  infinities is not cancellation).  Also: the reciprocal square root of a real that is at least one
  is a real, and the words denoting `100000` and `1`.
-/
import Mathlib
import Idealize.ShloMosaic.PureOps.Ideal
import proofs.«164736_j21964462752266_1_alg».proof.Proof.LibBatchNorm
import proofs.«164736_j21964462752266_1_alg».proof.Proof.LibFinite

open Idealize.ShloMosaic
open scoped BigOperators

noncomputable section

namespace Cert.Bridge.Stats

open Cert.Finite Cert.LibBatchNorm

/-- The single-precision word of `100000.0` denotes the real `100000`. -/
theorem ofBits_1e5 : Ideal.ofBits .f32 0x47C35000#32 = ((100000 : ℝ) : EReal) := by
  simp [Ideal.ofBits, Ideal.ieee, -EReal.coe_mul]; norm_num

/-- The single-precision word of `1.0` denotes `1`. -/
theorem ofBits_one : Ideal.ofBits .f32 0x3F800000#32 = 1 := by
  simp [Ideal.ofBits, Ideal.ieee, -EReal.coe_mul]; norm_num

/-- The reciprocal square root of a real that is at least one is a real: the argument is positive. -/
theorem isReal_rsqrt_of_one_le {a : EReal} (ha : IsReal a) (h1 : 1 ≤ a) : IsReal (Ideal.rsqrt a) := by
  obtain ⟨r, rfl⟩ := ha
  have hr : (1 : ℝ) ≤ r := by exact_mod_cast h1
  rw [rsqrt_pos_coe (lt_of_lt_of_le one_pos hr)]
  exact isReal_coe _

/-- Mean of the squares minus square of the mean is the mean of the squared deviations, for a real column. -/
theorem var_forms {n : ℕ} (hn : 0 < n) (h : Fin n → EReal) (hr : ∀ k, IsReal (h k)) (c z : EReal)
    (hc : c = ((n : ℝ) : EReal)) (hz : z = 0) :
    Ideal.div (z + ∑ k, h k * h k) c - Ideal.div (z + ∑ k, h k) c * Ideal.div (z + ∑ k, h k) c
      = Ideal.div (z + ∑ k, (h k - Ideal.div (z + ∑ k, h k) c) * (h k - Ideal.div (z + ∑ k, h k) c)) c := by
  subst hc hz
  choose r hrk using hr
  obtain rfl : h = fun k => (r k : EReal) := funext hrk
  have hN : (n : ℝ) ≠ 0 := Nat.cast_ne_zero.mpr hn.ne'
  simp only [zero_add]
  have hS : (∑ k, ((r k : ℝ) : EReal)) = ((∑ k, r k : ℝ) : EReal) := (coe_sum _ _).symm
  have hQ : (∑ k, ((r k : ℝ) : EReal) * ((r k : ℝ) : EReal)) = ((∑ k, r k * r k : ℝ) : EReal) := sum_mul_coe r r
  rw [hS, hQ, div_coe_coe _ hN, div_coe_coe _ hN]
  have hD : (∑ k, (((r k : ℝ) : EReal) - (((∑ k, r k) / n : ℝ) : EReal)) * (((r k : ℝ) : EReal) - (((∑ k, r k) / n : ℝ) : EReal)))
      = ((∑ k, (r k - (∑ k, r k) / n) * (r k - (∑ k, r k) / n) : ℝ) : EReal) := by
    rw [coe_sum]
    exact Finset.sum_congr rfl fun k _ => by rw [← EReal.coe_sub, ← EReal.coe_mul]
  rw [hD, div_coe_coe _ hN, ← EReal.coe_mul, ← EReal.coe_sub]
  exact congrArg _ (var_eq hn r)

end Cert.Bridge.Stats

end
-- ==== Proof.Bridge.lean ====
/-
  The two normalisations agree on a real array.

  The kernel takes the column statistics from the column sums `S = ∑ H`, `Q = ∑ H²`: `mean = S/N`, `var = Q/N - mean²`;
  the reference takes `mean = (0 + ∑ H)/N` and the centred `var = (0 + ∑ (H - mean)²)/N`.  The means are the same
  extended real (`0 + s = s`).  The variances are the same when every entry of the column is a real number: this is the
  identity `(∑ h²)/N - ((∑ h)/N)² = (∑ (h - (∑ h)/N)²)/N` of the reals, which does NOT hold with an infinite entry.
  With equal statistics the two outputs are the same expression of `H`, the scale and the shift.
-/
import proofs.«164736_j21964462752266_1_alg».proof.Proof.KSpec
import proofs.«164736_j21964462752266_1_alg».proof.Proof.LibVarianceForms
import proofs.«164736_j21964462752266_1_alg».proof.Proof.LibRowCast

noncomputable section

namespace Cert.Bridge

open Idealize.ShloMosaic Idealize.ShloMosaic.ValueIdx Cert.KernelIdeal Cert.KernelIdeal.Gen Cert.Finite
open scoped BigOperators

/-- The mean row of the kernel at column `j`: the column sum over the number of rows. -/
theorem colMean_apply (s : (⟨S1x128, .f32⟩ : BufTy).Contents (Elt Ideal)) (j : Fin 128) :
    colMean (F := Ideal) s (ix1 j) = Ideal.div (s (ix2 (0 : Fin 1) j)) rowsW := by
  unfold colMean
  show Ideal.div (shapeCast S128 s shapeCasts_S1x128_S128 (ix1 j)) rowsW = _
  rw [rowUncast_apply]

/-- The variance row of the kernel at column `j`. -/
theorem colVar_apply (s q : (⟨S1x128, .f32⟩ : BufTy).Contents (Elt Ideal)) (j : Fin 128) :
    colVar (F := Ideal) s q (ix1 j)
      = Ideal.div (q (ix2 (0 : Fin 1) j)) rowsW - Ideal.div (s (ix2 (0 : Fin 1) j)) rowsW * Ideal.div (s (ix2 (0 : Fin 1) j)) rowsW := by
  unfold colVar
  show colMean (F := Ideal) q (ix1 j) - colMean (F := Ideal) s (ix1 j) * colMean (F := Ideal) s (ix1 j) = _
  rw [colMean_apply, colMean_apply]

/-- THE BRIDGE: on an array of real entries the kernel's and the reference's normalised features are equal. -/
theorem normalised_agree (g be : (⟨S128, .f32⟩ : BufTy).Contents (Elt Ideal)) (H : S100000x128.Idx → EReal) (hH : ∀ i, IsReal (H i)) :
    normalisedK g be H = normalisedR g be H := by
  funext i
  obtain ⟨n, j, rfl⟩ : ∃ (n : Fin 100000) (j : Fin 128), i = ix2 n j := ⟨i 0, i 1, eq_ix2 i⟩
  unfold normalisedK normalisedR normRelu meanR
  rw [colOf_ix2, rowCast_apply, rowCast_apply, rowCast_apply, rowCast_apply, colMean_apply, colVar_apply]
  unfold colSum sq
  simp only [colOf_ix2]
  have hz : zeroW = 0 := Ideal.ofBits_zero_f32
  have hc : rowsW = ((100000 : ℕ) : ℝ) := by rw [show rowsW = _ from Stats.ofBits_1e5]; norm_num
  have hv := Stats.var_forms (n := 100000) (by norm_num) (fun k => H (ix2 k j)) (fun k => hH _) rowsW zeroW hc hz
  rw [hz] at hv ⊢
  simp only [zero_add] at hv ⊢
  rw [hv]

end Cert.Bridge

end
-- ==== Proof.LibFiniteInputs.lean ====
/-
  What a finite-inputs precondition gives.

  A test "every entry x of the array has |x| < +∞" is computed as a reduction by "and", over all the array's axes,
  of the entrywise comparison of |x| = max x (-x) with the pattern of +∞. Over the extended reals |x| is +∞ at both
  infinities and nowhere else, so the comparison holds at an entry exactly when the entry is a real number; and a
  reduction by "and" into a single value that comes out true had a true at every entry. Hence: every entry of an
  array whose all-entries test |x| < +∞ holds is a real number. A conjunction of several such tests, computed as a
  pointwise "and" of one-entry arrays, holds only when each of them does.
-/
import Mathlib
import Idealize.ShloMosaic.Lib.ReduceAll
import Idealize.ShloMosaic.Lib.ValueIdx
import Idealize.ShloMosaic.PureOps.Ideal
import proofs.«164736_j21964462752266_1_alg».proof.Proof.LibFinite

noncomputable section

namespace Cert.Lib.FiniteInputs

open Idealize.ShloMosaic Idealize.ShloMosaic.ValueIdx
open Cert.Finite

/-- The shape with no axes has one index. -/
instance subsingleton_scalar_idx : Subsingleton (⟨0, ![]⟩ : Shape).Idx := ⟨fun a b => funext fun d => d.elim0⟩

/-- The single-precision pattern 0x7F800000 (sign zero, exponent field all ones, fraction zero) denotes +∞. -/
theorem ofBits_inf : Ideal.ofBits .f32 0x7F800000#32 = (⊤ : EReal) := by
  simp [Ideal.ofBits, Ideal.ieee]

/-- An extended real whose absolute value max x (-x) is strictly below +∞ is a real number: at either infinity the
    absolute value is +∞ itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One all-entries test, over an array of any shape: if the reduction by "and", over all the axes, of the entrywise
    comparison |x| < +∞ is true, every entry of the array is a real number. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ix0 = 1#1)
    (i : s.Idx) : IsReal (x i) :=
  isReal_of_abs_lt_inf (x i) (Host.reduce_andi_all _ _ hr hu ix0 e i)

/-- A pointwise "and" of two one-entry arrays is true only when both are. -/
theorem and_scalar (A B : IVec (⟨0, ![]⟩ : Shape) 1) (h : andi A B ix0 = 1#1) : A ix0 = 1#1 ∧ B ix0 = 1#1 :=
  IntOp.andi_eq_one.1 h

end Cert.Lib.FiniteInputs

end
-- ==== Proof.Finite.lean ====
/-
  Realness.

  Under the precondition every entry of the float inputs is a real number (the precondition is a conjunction of
  seven tests "all entries have absolute value below +∞"; the first three are the node features, the first weight
  matrix and the first bias).  Realness then propagates: a degree count is a finite sum of ones, at least one after
  the clamp, so its reciprocal square root is real; a product of reals summed over a finite index is real; rows
  gathered from a real matrix and scatter-added into zeros are real.  So every entry of the first graph convolution
  `H = aggregate((x · ns) W₁) · nd + b₁` is a real number — which is what lets its two variance formulas agree.
-/
import proofs.«164736_j21964462752266_1_alg».proof.Proof.Gen.Pre_finite_inputs
import proofs.«164736_j21964462752266_1_alg».proof.Proof.LibFiniteInputs
import proofs.«164736_j21964462752266_1_alg».proof.Proof.LibColumn
import proofs.«164736_j21964462752266_1_alg».proof.Proof.KSpec
import proofs.«164736_j21964462752266_1_alg».proof.Proof.LibVarianceForms
import proofs.«164736_j21964462752266_1_alg».proof.Proof.LibRowCast

noncomputable section

namespace Cert.Bridge.Finite

open Idealize.ShloMosaic Idealize.ShloMosaic.ValueIdx
open Cert.Finite Cert.Lib.FiniteInputs Cert.Bridge
open scoped BigOperators

/-- From the precondition: the node features, the first weights and the first bias are real, entry by entry. -/
theorem inputs_real
    (a0 : FVec Ideal Cert.Pre_finite_inputs.S100000x128 .f32) (a1 a2 : IVec Cert.Pre_finite_inputs.S1600000 32) (a3 : FVec Ideal Cert.Pre_finite_inputs.S128x128 .f32)
    (a4 a5 a6 : FVec Ideal Cert.Pre_finite_inputs.S128 .f32) (a7 : FVec Ideal Cert.Pre_finite_inputs.S128x64 .f32) (a8 : FVec Ideal Cert.Pre_finite_inputs.S64 .f32)
    (h : Cert.Pre_finite_inputs.fn (F := Ideal) a0 a1 a2 a3 a4 a5 a6 a7 a8 ix0 = 1#1) :
    (∀ i, IsReal (a0 i)) ∧ (∀ i, IsReal (a3 i)) ∧ (∀ i, IsReal (a4 i)) := by
  dsimp only [Cert.Pre_finite_inputs.fn, Cert.Pre_finite_inputs.fn_part1] at h
  obtain ⟨h1, -⟩ := and_scalar _ _ h
  obtain ⟨h2, -⟩ := and_scalar _ _ h1
  obtain ⟨h3, -⟩ := and_scalar _ _ h2
  obtain ⟨h4, -⟩ := and_scalar _ _ h3
  obtain ⟨h5, hb⟩ := and_scalar _ _ h4
  obtain ⟨hx, hw⟩ := and_scalar _ _ h5
  exact ⟨all_real a0 _ _ _ hx, all_real a3 _ _ _ hw, all_real a4 _ _ _ hb⟩

open Cert.KernelIdeal Cert.KernelIdeal.Gen

/-- A scalar constant broadcast to any shape reads, at every index, the constant. -/
theorem bcast_const_apply {t : Shape} (hb : S_.BroadcastsInDim t (![] : Fin 0 → Fin t.rank)) (w : BitVec 32) (i : t.Idx) :
    broadcastInDim t ![] hb (constant (F := Ideal) S_ .f32 w) i = Ideal.ofBits .f32 w :=
  broadcastInDim_apply _ hb _ i ix0 (fun a => a.elim0)

/-- The reciprocal square root of a real clamped from below by one is real, read at one index of any arrays. -/
theorem rsqrt_max_isReal {s : Shape} (A B : FVec Ideal s .f32) (n : s.Idx) (hA : IsReal (A n)) (hB : B n = 1) :
    IsReal (Host.rsqrt (maximumf A B) n) := by
  show IsReal (Ideal.rsqrt (max (A n) (B n)))
  rw [hB]
  exact Stats.isReal_rsqrt_of_one_le (hA.max isReal_one) (le_max_right _ _)

/-- A degree normalisation is real: the count is a finite sum of ones, the clamp makes it at least one. -/
theorem degNorm_isReal (idx : (⟨S1600000, .i32⟩ : BufTy).Contents (Elt Ideal)) (n : S100000.Idx) : IsReal (degNorm (F := Ideal) idx n) := by
  have hs := scatterAdd_isReal scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))
    (fun i => by rw [bcast_const_apply]; exact isReal_ofBits_zero_f32)
    (fun i => by rw [bcast_const_apply]; exact isReal_ofBits_one_f32) n
  unfold degNorm
  exact rsqrt_max_isReal _ _ n hs ((bcast_const_apply bcast_S_S100000 0x3F800000#32 n).trans Stats.ofBits_one)

/-- The same as one column. -/
theorem normCol_isReal (idx : (⟨S1600000, .i32⟩ : BufTy).Contents (Elt Ideal)) (n : Fin 100000) (u : Fin 1) : IsReal (normCol idx (ix2 n u)) := by
  unfold normCol
  rw [Cert.Lib.Column.shapeCast_a_a1_apply]
  exact degNorm_isReal idx _

/-- THE FIRST CONVOLUTION IS REAL, entry by entry, for real features, weights and bias. -/
theorem conv1_isReal (x : (⟨S100000x128, .f32⟩ : BufTy).Contents (Elt Ideal)) (src dst : (⟨S1600000, .i32⟩ : BufTy).Contents (Elt Ideal))
    (w1 : (⟨S128x128, .f32⟩ : BufTy).Contents (Elt Ideal)) (b1 : (⟨S128, .f32⟩ : BufTy).Contents (Elt Ideal))
    (hx : ∀ i, IsReal (x i)) (hw : ∀ i, IsReal (w1 i)) (hb : ∀ i, IsReal (b1 i)) (i : S100000x128.Idx) :
    IsReal (conv1 x src dst w1 b1 i) := by
  obtain ⟨n, j, rfl⟩ : ∃ (n : Fin 100000) (j : Fin 128), i = ix2 n j := ⟨i 0, i 1, eq_ix2 i⟩
  have hp : ∀ i' : S100000x128.Idx, IsReal (scaledProduct x (normCol src) w1 i') := fun i' => by
    unfold scaledProduct
    exact IsReal.sum_fin _ fun k => ((hx _).mul (normCol_isReal src _ _)).mul (hw _)
  have ha : IsReal (aggregate128 (F := Ideal) src dst (scaledProduct x (normCol src) w1) (ix2 n j)) := by
    unfold aggregate128
    exact scatterAdd_isReal _ _ _ _ (fun i => by rw [bcast_const_apply]; exact isReal_ofBits_zero_f32)
      (fun e => gather_isReal _ _ _ hp e) _
  unfold conv1 scaleShift
  refine (ha.mul (normCol_isReal dst _ _)).add ?_
  rw [rowCast_apply]
  exact hb _

end Cert.Bridge.Finite

end
-- ==== Proof.lean ====
/-
  The certificate of a two-layer graph convolution with batch normalisation against its plain reference.

  Both programs compute, over 100000 nodes and 1600000 edges,
      H   = aggregate((x · ns) W₁) · nd + b₁            (ns, nd = 1/√max(deg, 1) of the source and destination endpoints)
      hr  = max(((H - mean) · rsqrt(var + ε)) · γ + β, 0)   (statistics down the 100000 rows of H)
      out = aggregate((hr · ns) W₂) · nd + b₂ .
  The kernel program splits this over five launches (the two products, the column sums of H and H², the normalisation,
  the last scale-and-shift), with the degree counts, the gathers and the scatter-adds left on the host; the reference is
  one line of host operations.  Over the extended reals: a change of float format is the identity; a product into a zero
  accumulator is the sum over the contracted coordinate on both sides; ten blocks of 10000 rows regroup into one sum over
  100000 rows; the host-side normalisations and aggregations are the same functions of equal operands.  What is left is
  the variance: the kernel writes it as the mean of squares minus the square of the mean, the reference as the mean of
  squared deviations.  These agree exactly when the column is real, and it is: under the precondition the features, the
  first weights and the first bias are finite, and degree normalisation, products, gathers and scatter-adds keep realness.
  The three frame claims are the generated frames (the reference's is its generated run with the result dropped); the
  idealisation rewrote nothing, so `preserves` is trivial.
-/
import proofs.«164736_j21964462752266_1_alg».proof.Defs
import proofs.«164736_j21964462752266_1_alg».proof.Proof.Gen.Kernel
import proofs.«164736_j21964462752266_1_alg».proof.Proof.Gen.Kernel.Frame
import proofs.«164736_j21964462752266_1_alg».proof.Proof.Gen.KernelIdeal
import proofs.«164736_j21964462752266_1_alg».proof.Proof.Gen.KernelIdeal.Frame
import proofs.«164736_j21964462752266_1_alg».proof.Proof.Gen.ReferenceIdeal
import proofs.«164736_j21964462752266_1_alg».proof.Proof.Gen.ReferenceIdeal.Run
import proofs.«164736_j21964462752266_1_alg».proof.Proof.Gen.ReferenceIdeal.Read
import proofs.«164736_j21964462752266_1_alg».proof.Proof.Gen.Pre_finite_inputs
import proofs.«164736_j21964462752266_1_alg».proof.Proof.KFrame
import proofs.«164736_j21964462752266_1_alg».proof.Proof.KValue
import proofs.«164736_j21964462752266_1_alg».proof.Proof.RefValue
import proofs.«164736_j21964462752266_1_alg».proof.Proof.Bridge
import proofs.«164736_j21964462752266_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Bridge

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both programs end with the shared tail of their normalised features of the first convolution; on arguments that
    agree and are finite the two normalised features are equal. -/
theorem algebraic : Cert.algebraic_KernelIdeal_ReferenceIdeal := by
  intro m ρ m' ρ' hpre hagree
  refine ⟨fun c => tailOut (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (normalisedK (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (conv1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))), ?_, ?_⟩
  · refine (θ_run Cert.KernelIdeal.defs _ _).mono (fun r h c => ?_) (Cert.KernelIdeal.Gen.frame_result m ρ)
    obtain ⟨h0, h1, h2, h3, h4, h5, h6, h7, h8, hv⟩ := h c
    exact ⟨hv.trans (KValue.result m ρ c), h0, h1, h2, h3, h4, h5, h6, h7, h8⟩
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8⟩ := hagree c
    obtain ⟨hx, hw, hb⟩ := Finite.inputs_real _ _ _ _ _ _ _ _ _ (congrFun (hpre c) ix0)
    rw [Cert.ReferenceIdeal.Read.val_main_v78_eq, Ref.result, e0, e1, e2, e3, e4, e5, e6, e7, e8]
    exact congrArg _ (normalised_agree _ _ _ (Finite.conv1_isReal _ _ _ _ _ hx hw hb)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
